-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S1024x512 : Shape := ⟨2, ![1024, 512]⟩
abbrev S512 : Shape := ⟨1, ![512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_

variable [Facts]

def fn_part3 {F : FTy → Type} [FloatOps F] (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  main_v53

def fn_part2 {F : FTy → Type} [FloatOps F] (main_arg7 : FVec F S1024x512 .f32) (main_arg8 : FVec F S512 .f32) (main_arg9 : FVec F S1024x512 .f32) (main_arg10 : FVec F S512 .f32) (main_v33 : IVec S_ 1) : IVec S_ 1 :=
  let main_v34 : FVec F S1024x512 .f32 := Host.absf main_arg7
  let main_cst_12 : FVec F S_ .f32 := constant S_ .f32 0x7F800000#32
  let main_v35 : FVec F S1024x512 .f32 := broadcastInDim S1024x512 ![] bcast_S_S1024x512 main_cst_12
  let main_v36 : IVec S1024x512 1 := cmpf .olt main_v34 main_v35
  let main_c_13 : IVec S_ 1 := constantI S_ 1 1#1
  let main_v37 : IVec S_ 1 := (fun x v => Host.reduce IntOp.andi x v reducesTo_S1024x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S1024x512 .f32 := Host.absf main_arg9
  let main_cst_16 : FVec F S_ .f32 := constant S_ .f32 0x7F800000#32
  let main_v45 : FVec F S1024x512 .f32 := broadcastInDim S1024x512 ![] bcast_S_S1024x512 main_cst_16
  let main_v46 : IVec S1024x512 1 := cmpf .olt main_v44 main_v45
  let main_c_17 : IVec S_ 1 := constantI S_ 1 1#1
  let main_v47 : IVec S_ 1 := (fun x v => Host.reduce IntOp.andi x v reducesTo_S1024x512_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_v48 main_v49 main_v50

def fn_part1 {F : FTy → Type} [FloatOps F] (main_arg4 : FVec F S512 .f32) (main_arg5 : FVec F S1024x512 .f32) (main_arg6 : FVec F S512 .f32) (main_arg7 : FVec F S1024x512 .f32) (main_arg8 : FVec F S512 .f32) (main_arg9 : FVec F S1024x512 .f32) (main_arg10 : FVec F S512 .f32) (main_v13 : IVec S_ 1) (main_v16 : IVec S1024x512 1) : IVec S_ 1 :=
  let main_c_5 : IVec S_ 1 := constantI S_ 1 1#1
  let main_v17 : IVec S_ 1 := (fun x v => Host.reduce IntOp.andi x v reducesTo_S1024x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S1024x512 .f32 := Host.absf main_arg5
  let main_cst_8 : FVec F S_ .f32 := constant S_ .f32 0x7F800000#32
  let main_v25 : FVec F S1024x512 .f32 := broadcastInDim S1024x512 ![] bcast_S_S1024x512 main_cst_8
  let main_v26 : IVec S1024x512 1 := cmpf .olt main_v24 main_v25
  let main_c_9 : IVec S_ 1 := constantI S_ 1 1#1
  let main_v27 : IVec S_ 1 := (fun x v => Host.reduce IntOp.andi x v reducesTo_S1024x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S16384x512 .f32) (main_arg1 : FVec F S16384x512 .f32) (main_arg2 : FVec F S16384x512 .f32) (main_arg3 : FVec F S1024x512 .f32) (main_arg4 : FVec F S512 .f32) (main_arg5 : FVec F S1024x512 .f32) (main_arg6 : FVec F S512 .f32) (main_arg7 : FVec F S1024x512 .f32) (main_arg8 : FVec F S512 .f32) (main_arg9 : FVec F S1024x512 .f32) (main_arg10 : FVec F S512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  let main_v14 : FVec F S1024x512 .f32 := Host.absf main_arg3
  let main_cst_4 : FVec F S_ .f32 := constant S_ .f32 0x7F800000#32
  let main_v15 : FVec F S1024x512 .f32 := broadcastInDim S1024x512 ![] bcast_S_S1024x512 main_cst_4
  let main_v16 : IVec S1024x512 1 := cmpf .olt main_v14 main_v15
  fn_part1 (F := F) main_arg4 main_arg5 main_arg6 main_arg7 main_arg8 main_arg9 main_arg10 main_v13 main_v16
-- ==== Kernel.lean ====
abbrev S16384x512 : Shape := ⟨2, ![16384, 512]⟩
abbrev S1024x512 : Shape := ⟨2, ![1024, 512]⟩
abbrev S512 : Shape := ⟨1, ![512]⟩
abbrev S1x512 : Shape := ⟨2, ![1, 512]⟩
abbrev S512x512 : Shape := ⟨2, ![512, 512]⟩

abbrev nBuf : Space → Nat
  | .hbm => 21
  | .vmem => 18
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S1024x512, .f32⟩
  | .hbm, ⟨4, _⟩ => ⟨S512, .f32⟩
  | .hbm, ⟨5, _⟩ => ⟨S1024x512, .f32⟩
  | .hbm, ⟨6, _⟩ => ⟨S512, .f32⟩
  | .hbm, ⟨7, _⟩ => ⟨S1024x512, .f32⟩
  | .hbm, ⟨8, _⟩ => ⟨S512, .f32⟩
  | .hbm, ⟨9, _⟩ => ⟨S1024x512, .f32⟩
  | .hbm, ⟨10, _⟩ => ⟨S512, .f32⟩
  | .hbm, ⟨11, _⟩ => ⟨S1024x512, .bf16⟩
  | .hbm, ⟨12, _⟩ => ⟨S1024x512, .bf16⟩
  | .hbm, ⟨13, _⟩ => ⟨S1024x512, .bf16⟩
  | .hbm, ⟨14, _⟩ => ⟨S1024x512, .bf16⟩
  | .hbm, ⟨15, _⟩ => ⟨S1x512, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S16384x512, .f32⟩
  | .hbm, ⟨20, _⟩ => ⟨S16384x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  bitsLt_bf16_f32 : FTy.bits .bf16 < FTy.bits .f32
  shapeCasts_S512_S1x512 : S512.ShapeCasts S1x512
  inb_S512x512_S512x512_0_0 : ∀ a, (![0, 0] : Fin 2 → Nat) a + S512x512.size a ≤ S512x512.size a
  h_S512x512 : 0 < S512x512.numel
  inb_S1024x512_S512x512_0_0 : ∀ a, (![0, 0] : Fin 2 → Nat) a + S512x512.size a ≤ S1024x512.size a
  shapeCasts_S512x512_S512x512 : S512x512.ShapeCasts S512x512
  inb_S1024x512_S512x512_512_0 : ∀ a, (![512, 0] : Fin 2 → Nat) a + S512x512.size a ≤ S1024x512.size a
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x512.size a
  hwx0_0 : ∀ i : grid0.Coords, EltTy.bits .f32 = 32 ∨ (Rect.block (s := S16384x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S16384x512.size a
  hwx0_1 : ∀ i : grid0.Coords, EltTy.bits .f32 = 32 ∨ (Rect.block (s := S16384x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S16384x512.size a
  hwx0_2 : ∀ i : grid0.Coords, EltTy.bits .f32 = 32 ∨ (Rect.block (s := S16384x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S1024x512.size a
  hwx0_3 : ∀ i : grid0.Coords, EltTy.bits .bf16 = 32 ∨ (Rect.block (s := S1024x512) S1024x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S1024x512.size a
  hwx0_4 : ∀ i : grid0.Coords, EltTy.bits .bf16 = 32 ∨ (Rect.block (s := S1024x512) S1024x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S1024x512.size a
  hwx0_5 : ∀ i : grid0.Coords, EltTy.bits .bf16 = 32 ∨ (Rect.block (s := S1024x512) S1024x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S1024x512.size a
  hwx0_6 : ∀ i : grid0.Coords, EltTy.bits .bf16 = 32 ∨ (Rect.block (s := S1024x512) S1024x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x512.size a
  hwx0_9 : ∀ i : grid0.Coords, EltTy.bits .f32 = 32 ∨ (Rect.block (s := S1x512) S1x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x512.size a ≤ S1x512.size a
  hwx0_10 : ∀ i : grid0.Coords, EltTy.bits .f32 = 32 ∨ (Rect.block (s := S1x512) S1x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x512.size a ≤ S16384x512.size a
  hwx0_11 : ∀ i : grid0.Coords, EltTy.bits .f32 = 32 ∨ (Rect.block (s := S16384x512) S512x512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512x512.size a ≤ S16384x512.size a
  hwx0_12 : ∀ i : grid0.Coords, EltTy.bits .f32 = 32 ∨ (Rect.block (s := S16384x512) S512x512.size (cc0_transform_12 i) (hinb0_12 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1024x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S1x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S1x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v8_0) S512x512.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v8_1) S512x512.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S16384x512 : Shape := ⟨2, ![16384, 512]⟩
abbrev S1024x512 : Shape := ⟨2, ![1024, 512]⟩
abbrev S512 : Shape := ⟨1, ![512]⟩
abbrev S16384x1024 : Shape := ⟨2, ![16384, 1024]⟩
abbrev S1024x2048 : Shape := ⟨2, ![1024, 2048]⟩
abbrev S2048 : Shape := ⟨1, ![2048]⟩
abbrev S16384x2048 : Shape := ⟨2, ![16384, 2048]⟩
abbrev S1x2048 : Shape := ⟨2, ![1, 2048]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S1024x512, .f32⟩
  | .hbm, ⟨4, _⟩ => ⟨S512, .f32⟩
  | .hbm, ⟨5, _⟩ => ⟨S1024x512, .f32⟩
  | .hbm, ⟨6, _⟩ => ⟨S512, .f32⟩
  | .hbm, ⟨7, _⟩ => ⟨S1024x512, .f32⟩
  | .hbm, ⟨8, _⟩ => ⟨S512, .f32⟩
  | .hbm, ⟨9, _⟩ => ⟨S1024x512, .f32⟩
  | .hbm, ⟨10, _⟩ => ⟨S512, .f32⟩
  | .hbm, ⟨11, _⟩ => ⟨S16384x1024, .f32⟩
  | .hbm, ⟨12, _⟩ => ⟨S1024x2048, .f32⟩
  | .hbm, ⟨13, _⟩ => ⟨S2048, .f32⟩
  | .hbm, ⟨14, _⟩ => ⟨S16384x2048, .f32⟩
  | .hbm, ⟨15, _⟩ => ⟨S1x2048, .f32⟩
  | .hbm, ⟨16, _⟩ => ⟨S16384x2048, .f32⟩
  | .hbm, ⟨17, _⟩ => ⟨S16384x2048, .f32⟩
  | .hbm, ⟨18, _⟩ => ⟨S16384x512, .f32⟩
  | .hbm, ⟨19, _⟩ => ⟨S16384x512, .f32⟩
  | .hbm, ⟨20, _⟩ => ⟨S16384x512, .f32⟩
  | .hbm, ⟨21, _⟩ => ⟨S16384x512, .f32⟩
  | .hbm, ⟨22, _⟩ => ⟨S16384x512, .f32⟩
  | .hbm, ⟨23, _⟩ => ⟨S16384x512, .f32⟩
  | .hbm, ⟨24, _⟩ => ⟨S_, .f32⟩
  | .hbm, ⟨25, _⟩ => ⟨S16384x512, .f32⟩
  | .hbm, ⟨26, _⟩ => ⟨S16384x512, .f32⟩
  | .hbm, ⟨27, _⟩ => ⟨S_, .f32⟩
  | .hbm, ⟨28, _⟩ => ⟨S16384x512, .f32⟩
  | .hbm, ⟨29, _⟩ => ⟨S16384x512, .f32⟩
  | .hbm, ⟨30, _⟩ => ⟨S16384x512, .f32⟩
  | .hbm, ⟨31, _⟩ => ⟨S16384x512, .f32⟩
  | .hbm, ⟨32, _⟩ => ⟨S_, .f32⟩
  | .hbm, ⟨33, _⟩ => ⟨S16384x512, .f32⟩
  | .hbm, ⟨34, _⟩ => ⟨S16384x512, .f32⟩
  | .hbm, ⟨35, _⟩ => ⟨S_, .f32⟩
  | .hbm, ⟨36, _⟩ => ⟨S16384x512, .f32⟩
  | .hbm, ⟨37, _⟩ => ⟨S16384x512, .f32⟩
  | .hbm, ⟨38, _⟩ => ⟨S16384x512, .f32⟩
  | .hbm, ⟨39, _⟩ => ⟨S16384x512, .f32⟩
  | .hbm, ⟨40, _⟩ => ⟨S_, .f32⟩
  | .hbm, ⟨41, _⟩ => ⟨S16384x512, .f32⟩
  | .hbm, ⟨42, _⟩ => ⟨S16384x512, .f32⟩
  | .hbm, ⟨43, _⟩ => ⟨S_, .f32⟩
  | .hbm, ⟨44, _⟩ => ⟨S16384x512, .f32⟩
  | .hbm, ⟨45, _⟩ => ⟨S16384x512, .f32⟩
  | .hbm, ⟨46, _⟩ => ⟨S16384x512, .f32⟩
  | .hbm, ⟨47, _⟩ => ⟨S16384x512, .f32⟩
  | .hbm, ⟨48, _⟩ => ⟨S16384x512, .f32⟩
  | .hbm, ⟨49, _⟩ => ⟨S16384x512, .f32⟩
  | .hbm, ⟨50, _⟩ => ⟨S16384x512, .f32⟩
  | .hbm, ⟨51, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]

class Facts₀ : Prop where
  concatenates_S16384x512_S16384x512_S16384x1024_d1 : Shape.Concatenates [S16384x512, S16384x512] S16384x1024 1
  concatenates_S1024x512_S1024x512_S1024x512_S1024x512_S1024x2048_d1 : Shape.Concatenates [S1024x512, S1024x512, S1024x512, S1024x512] S1024x2048 1
  concatenates_S512_S512_S512_S512_S2048_d0 : Shape.Concatenates [S512, S512, S512, S512] S2048 0
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  slices_S16384x2048_S16384x512_0_0 : S16384x2048.Slices ![0, 0] S16384x512
  slices_S16384x2048_S16384x512_0_512 : S16384x2048.Slices ![0, 512] S16384x512
  slices_S16384x2048_S16384x512_0_1024 : S16384x2048.Slices ![0, 1024] S16384x512
  slices_S16384x2048_S16384x512_0_1536 : S16384x2048.Slices ![0, 1536] S16384x512
  bcast_S_S16384x512 : S_.BroadcastsInDim S16384x512 (![] : Fin 0 → Fin S16384x512.rank)
  dot_S16384x1024_S1024x2048_S16384x2048_1_0_0_1_n_n_wf : DotDims.WF S16384x1024 S1024x2048 S16384x2048 [1] [0] [0] [1] [] []

variable [Facts₀]

def dot_S16384x1024_S1024x2048_S16384x2048_1_0_0_1_n_n : DotDims S16384x1024 S1024x2048 S16384x2048 where
  lhsContracting := [1]
  rhsContracting := [0]
  lhsNonContracting := [0]
  rhsNonContracting := [1]
  lhsBatch := []
  rhsBatch := []
  wf := dot_S16384x1024_S1024x2048_S16384x2048_1_0_0_1_n_n_wf

class Facts : Prop extends Facts₀ where

variable [Facts]
-- ==== Proof.LibDense.lean ====
/-
  General lemmas for dense (fully connected) layers, over variable extents, at the extended reals.

  * `plain_sum`: for the plain dimension numbers "M×K by K×N" (contract the left operand's axis 1 with the
    right operand's axis 0, no batch axis), the sum over the contraction index of the operands' products at the
    result index (i, j) is `∑ k : Fin K, l (i, k) * r (k, j)`.
  * `matmul_zero_plain` / `dotGeneral_plain`: hence a vector-unit matrix product into a zero accumulator, and the
    host's `dot_general`, read at (i, j), are both that sum.
  * `concat_cols_apply`: two matrices [n, a] and [n, b] laid side by side along axis 1, read at (r, k): the first at
    (r, k) when k < a, the second at (r, k − a) otherwise.
  * `spread_col_apply`: an [a, 1] column spread over b columns, read at (p, c), is the column at p.
  * `dense_apply`: a matrix product into the zero accumulator plus a [1, N] bias row spread down the rows, read at
    (r, j), is  (∑ k, l (r, k) * w (k, j)) + bias (0, j).
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibDense

open Idealize.ShloMosaic Idealize.ShloMosaic.ValueIdx

/-- The plain dimension numbers `<[1], [0], [0], [1], [], []>` over any well-formedness witness: two records with these
    axis lists differ only in that witness, so every printed record of this kind is one of these by unfolding. -/
abbrev plainOf {M K N : Nat}
    (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ :=
  { lhsContracting := [1], rhsContracting := [0], lhsNonContracting := [0], rhsNonContracting := [1],
    lhsBatch := [], rhsBatch := [], wf := wf }

section Plain
variable {M K N : Nat} (wf : DotDims.WF (⟨2, ![M, K]⟩ : Shape) ⟨2, ![K, N]⟩ ⟨2, ![M, N]⟩ [1] [0] [0] [1] [] [])

/-- The left operand's row is the result's row. -/
theorem lhs_row (i : (⟨2, ![M, N]⟩ : Shape).Idx) (q : (plainOf wf).contr.Idx) :
    ((plainOf wf).lhsIdx i q 0).val = (i 0).val := by
  unfold DotDims.lhsIdx
  rw [dif_neg (show ¬(0 : Fin 2) ∈ (plainOf wf).lhsBatch from List.not_mem_nil),
    dif_pos (show (0 : Fin 2) ∈ (plainOf wf).lhsNonContracting from List.mem_singleton.mpr rfl)]
  rfl

/-- The right operand's column is the result's column. -/
theorem rhs_col (i : (⟨2, ![M, N]⟩ : Shape).Idx) (q : (plainOf wf).contr.Idx) :
    ((plainOf wf).rhsIdx i q 1).val = (i 1).val := by
  unfold DotDims.rhsIdx
  rw [dif_neg (show ¬(1 : Fin 2) ∈ (plainOf wf).rhsBatch from List.not_mem_nil),
    dif_pos (show (1 : Fin 2) ∈ (plainOf wf).rhsNonContracting from List.mem_singleton.mpr rfl)]
  rfl

/-- The contraction sum of a plain product at (i, j), re-indexed by the one contracted coordinate. -/
theorem plain_sum (l : (⟨2, ![M, K]⟩ : Shape).Idx → EReal) (r : (⟨2, ![K, N]⟩ : Shape).Idx → EReal)
    (i : Fin M) (j : Fin N) :
    ∑ q : (plainOf wf).contr.Idx, l ((plainOf wf).lhsIdx (ix2 i j) q) * r ((plainOf wf).rhsIdx (ix2 i j) q)
      = ∑ k : Fin K, l (ix2 i k) * r (ix2 k j) := by
  rw [← Equiv.sum_comp (contrEquiv1 (plainOf wf) K rfl rfl).symm]
  refine Finset.sum_congr rfl fun k _ => ?_
  have hk := contrEquiv1_symm_val (plainOf wf) K rfl rfl k
  have el : (plainOf wf).lhsIdx (ix2 i j) ((contrEquiv1 (plainOf wf) K rfl rfl).symm k) = ix2 i k :=
    funext fun a => Fin.ext (by
      match a with
      | ⟨0, _⟩ => exact lhs_row wf _ _
      | ⟨1, _⟩ => exact ((plainOf wf).lhsIdx_val_of_single rfl _ _).trans hk)
  have er : (plainOf wf).rhsIdx (ix2 i j) ((contrEquiv1 (plainOf wf) K rfl rfl).symm k) = ix2 k j :=
    funext fun a => Fin.ext (by
      match a with
      | ⟨0, _⟩ => exact ((plainOf wf).rhsIdx_val_of_single rfl _ _).trans hk
      | ⟨1, _⟩ => exact rhs_col wf _ _)
  rw [el, er]

/-- A matrix product on the vector unit into the zero accumulator, read at (i, j): the plain sum. -/
theorem matmul_zero_plain {φ₁ φ₂ : FTy} (prec : Option ContractPrecision)
    (l : FVec Ideal (⟨2, ![M, K]⟩ : Shape) φ₁) (r : FVec Ideal (⟨2, ![K, N]⟩ : Shape) φ₂) (i : Fin M) (j : Fin N) :
    FloatOps.matmul (plainOf wf) prec l r (constant (⟨2, ![M, N]⟩ : Shape) .f32 0x00000000#32) (ix2 i j)
      = ∑ k : Fin K, l (ix2 i k) * r (ix2 k j) :=
  (Ideal.matmul_constant_zero_apply (plainOf wf) prec l r (ix2 i j)).trans (plain_sum wf l r i j)

/-- The host's `dot_general` with the plain dimension numbers, read at (i, j): the same sum. -/
theorem dotGeneral_plain {φ₁ φ₂ : FTy} (prec : Option ContractPrecision) (sched : HostSchedule)
    (l : FVec Ideal (⟨2, ![M, K]⟩ : Shape) φ₁) (r : FVec Ideal (⟨2, ![K, N]⟩ : Shape) φ₂) (i : Fin M) (j : Fin N) :
    FloatOps.dotGeneral (plainOf wf) prec sched l r (ix2 i j) = ∑ k : Fin K, l (ix2 i k) * r (ix2 k j) :=
  (Ideal.dotGeneral_apply (plainOf wf) prec sched l r (ix2 i j)).trans (plain_sum wf l r i j)

end Plain

section Layout
variable {α : Type}

/-- Two matrices side by side along axis 1, read at (r, k). -/
theorem concat_cols_apply {n a b c : Nat} (hc : a + b = c)
    (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ 1) (r : Fin n) (k : Fin c) :
    concatenate (⟨2, ![n, c]⟩ : Shape) 1 [⟨⟨2, ![n, a]⟩, x⟩, ⟨⟨2, ![n, b]⟩, y⟩] h (ix2 r k)
      = if hk : k.val < a then x (ix2 r ⟨k.val, hk⟩) else y (ix2 r ⟨k.val - a, by have := k.isLt; omega⟩) := by
  by_cases hk : k.val < a
  · rw [dif_pos hk]
    exact concatenate_pair_apply_left 1 x y h (ix2 r k) rfl (ix2 r ⟨k.val, hk⟩)
      (fun d => by match d with | ⟨0, _⟩ => rfl | ⟨1, _⟩ => rfl)
  · rw [dif_neg hk]
    refine concatenate_pair_apply_right 1 x y h (ix2 r k) rfl rfl (ix2 r ⟨k.val - a, by have := k.isLt; omega⟩)
      (fun d hd => by
        match d with
        | ⟨0, _⟩ => rfl
        | ⟨1, _⟩ => exact absurd rfl hd) ?_
    show k.val - a + a = k.val
    omega

/-- An [a, 1] column spread over b columns, read at (p, c): the column's entry of row p. -/
theorem spread_col_apply {a b : Nat} (v : (⟨2, ![a, 1]⟩ : Shape).Idx → α)
    (h : (⟨2, ![a, 1]⟩ : Shape).Broadcasts ⟨2, ![a, b]⟩) (p : Fin a) (c : Fin b) :
    broadcastTo (⟨2, ![a, b]⟩ : Shape) v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A dense layer on the vector unit read at (r, j): the product into the zero accumulator is the plain sum, the bias
    row spread down the rows is the bias at column j. -/
theorem dense_apply {n K N : Nat}
    (wf : DotDims.WF (⟨2, ![n, K]⟩ : Shape) ⟨2, ![K, N]⟩ ⟨2, ![n, N]⟩ [1] [0] [0] [1] [] []) {φ₁ φ₂ : FTy}
    (l : FVec Ideal (⟨2, ![n, K]⟩ : Shape) φ₁) (w : FVec Ideal (⟨2, ![K, N]⟩ : Shape) φ₂)
    (bias : FVec Ideal (⟨2, ![1, N]⟩ : Shape) .f32) (hbc : (⟨2, ![1, N]⟩ : Shape).Broadcasts ⟨2, ![n, N]⟩)
    (r : Fin n) (j : Fin N) :
    addf (matmul (plainOf wf) none l w (constant (⟨2, ![n, N]⟩ : Shape) .f32 0x00000000#32))
        (broadcastTo (⟨2, ![n, N]⟩ : Shape) bias hbc) (ix2 r j)
      = (∑ k : Fin K, l (ix2 r k) * w (ix2 k j)) + bias (ix2 (0 : Fin 1) j) :=
  congrArg₂ (· + ·) (matmul_zero_plain wf none l w r j) (broadcastTo_1b_ab_apply bias hbc r j)

end Cert.LibDense

end
-- ==== Proof.LstmCell.lean ====
/-
  The LSTM cell as one function of its argument arrays, index by index, on the extended reals.

  For a batch row r and a hidden unit j, a gate's pre-activation is
      pre(W, b)(r, j) = (Σ_{k<512} x(r,k)·W(k,j)  +  Σ_{k<512} h(r,k)·W(512+k,j))  +  b(j):
  the input row against the upper 512 rows of the gate's [1024, 512] weight matrix, the hidden row against its
  lower 512 rows, plus the bias. With σ(z) = 1/(1+e^{-z}) the cell is
      c'(r,j) = σ(pre(W_f,b_f)) · c(r,j) + σ(pre(W_i,b_i)) · tanh(pre(W_c,b_c)),
      h'(r,j) = σ(pre(W_o,b_o)) · tanh(c'(r,j)).
  Both programs are proved equal to these two functions; nothing here assumes the entries finite.
-/
import Idealize.ShloMosaic.Lib.ValueIdx
import Idealize.ShloMosaic.PureOps.Ideal

noncomputable section

namespace Cert.LstmCell

open Idealize.ShloMosaic Idealize.ShloMosaic.ValueIdx
open scoped BigOperators

/-- Row k of the upper half of a 1024-row weight matrix. -/
abbrev upper (k : Fin 512) : Fin 1024 := ⟨k.val, by have := k.isLt; omega⟩
/-- Row k of the lower half: row 512 + k. -/
abbrev lower (k : Fin 512) : Fin 1024 := ⟨512 + k.val, by have := k.isLt; omega⟩

/-- A gate's pre-activation at batch row r and hidden unit j. -/
def gatePre (x h : (⟨2, ![16384, 512]⟩ : Shape).Idx → EReal) (W : (⟨2, ![1024, 512]⟩ : Shape).Idx → EReal)
    (b : (⟨1, ![512]⟩ : Shape).Idx → EReal) (r : Fin 16384) (j : Fin 512) : EReal :=
  ((∑ k : Fin 512, x (ix2 r k) * W (ix2 (upper k) j)) + ∑ k : Fin 512, h (ix2 r k) * W (ix2 (lower k) j)) + b (ix1 j)

/-- The next cell state at (r, j): forget gate times the old state plus input gate times the candidate. -/
def cellAt (x h c : (⟨2, ![16384, 512]⟩ : Shape).Idx → EReal)
    (Wi : (⟨2, ![1024, 512]⟩ : Shape).Idx → EReal) (bi : (⟨1, ![512]⟩ : Shape).Idx → EReal)
    (Wf : (⟨2, ![1024, 512]⟩ : Shape).Idx → EReal) (bf : (⟨1, ![512]⟩ : Shape).Idx → EReal)
    (Wc : (⟨2, ![1024, 512]⟩ : Shape).Idx → EReal) (bc : (⟨1, ![512]⟩ : Shape).Idx → EReal)
    (r : Fin 16384) (j : Fin 512) : EReal :=
  Ideal.logistic (gatePre x h Wf bf r j) * c (ix2 r j)
    + Ideal.logistic (gatePre x h Wi bi r j) * Ideal.tanh (gatePre x h Wc bc r j)

/-- The next hidden state at (r, j): output gate times tanh of the next cell state. -/
def hiddenAt (x h c : (⟨2, ![16384, 512]⟩ : Shape).Idx → EReal)
    (Wi : (⟨2, ![1024, 512]⟩ : Shape).Idx → EReal) (bi : (⟨1, ![512]⟩ : Shape).Idx → EReal)
    (Wf : (⟨2, ![1024, 512]⟩ : Shape).Idx → EReal) (bf : (⟨1, ![512]⟩ : Shape).Idx → EReal)
    (Wo : (⟨2, ![1024, 512]⟩ : Shape).Idx → EReal) (bo : (⟨1, ![512]⟩ : Shape).Idx → EReal)
    (Wc : (⟨2, ![1024, 512]⟩ : Shape).Idx → EReal) (bc : (⟨1, ![512]⟩ : Shape).Idx → EReal)
    (r : Fin 16384) (j : Fin 512) : EReal :=
  Ideal.logistic (gatePre x h Wo bo r j) * Ideal.tanh (cellAt x h c Wi bi Wf bf Wc bc r j)

/-- The next cell state as a whole [16384, 512] array. -/
def cellNext (x h c : (⟨2, ![16384, 512]⟩ : Shape).Idx → EReal)
    (Wi : (⟨2, ![1024, 512]⟩ : Shape).Idx → EReal) (bi : (⟨1, ![512]⟩ : Shape).Idx → EReal)
    (Wf : (⟨2, ![1024, 512]⟩ : Shape).Idx → EReal) (bf : (⟨1, ![512]⟩ : Shape).Idx → EReal)
    (Wc : (⟨2, ![1024, 512]⟩ : Shape).Idx → EReal) (bc : (⟨1, ![512]⟩ : Shape).Idx → EReal) :
    (⟨2, ![16384, 512]⟩ : Shape).Idx → EReal :=
  fun i => cellAt x h c Wi bi Wf bf Wc bc (i 0) (i 1)

/-- The next hidden state as a whole [16384, 512] array. -/
def hiddenNext (x h c : (⟨2, ![16384, 512]⟩ : Shape).Idx → EReal)
    (Wi : (⟨2, ![1024, 512]⟩ : Shape).Idx → EReal) (bi : (⟨1, ![512]⟩ : Shape).Idx → EReal)
    (Wf : (⟨2, ![1024, 512]⟩ : Shape).Idx → EReal) (bf : (⟨1, ![512]⟩ : Shape).Idx → EReal)
    (Wo : (⟨2, ![1024, 512]⟩ : Shape).Idx → EReal) (bo : (⟨1, ![512]⟩ : Shape).Idx → EReal)
    (Wc : (⟨2, ![1024, 512]⟩ : Shape).Idx → EReal) (bc : (⟨1, ![512]⟩ : Shape).Idx → EReal) :
    (⟨2, ![16384, 512]⟩ : Shape).Idx → EReal :=
  fun i => hiddenAt x h c Wi bi Wf bf Wo bo Wc bc (i 0) (i 1)

end Cert.LstmCell

end
-- ==== Proof.KernelBlock.lean ====
/-
  What the kernel body leaves in its two output blocks, read at a row p and a column q of the block.

  A grid point holds 512 batch rows: blocks xb, hb, cb of x, h, c, and the four whole weight matrices and bias rows.
  Each gate multiplies the x block by the upper 512 rows of its weight matrix and the h block by the lower 512 rows
  (two matrix products into zero accumulators, added), adds the bias row spread down the rows, and applies the
  logistic function or tanh. Changes of float format and shape casts to the same shape are identities here, and a
  product into the zero accumulator is the plain sum over the shared axis, so at (p, q)
      gate(W, b) = (Σ_k xb(p,k)·W(k,q) + Σ_k hb(p,k)·W(512+k,q)) + b(0,q).
-/
import proofs.«117257_j82669530514116_2_alg».proof.Proof.Gen.KernelIdeal.Frame
import proofs.«117257_j82669530514116_2_alg».proof.Proof.LibDense
import proofs.«117257_j82669530514116_2_alg».proof.Proof.LstmCell
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Block

open Cert.KernelIdeal Cert.KernelIdeal.Gen Idealize.ShloMosaic Idealize.ShloMosaic.ValueIdx
open Cert.LstmCell (upper lower)
open scoped BigOperators

/-- A gate's pre-activation on one block of 512 batch rows, at row p and hidden unit q: the x block against the
    weight matrix's upper rows, the h block against its lower rows, plus the bias row's entry. -/
def blockPre (xb hb : S512x512.Idx → EReal) (W : S1024x512.Idx → EReal) (b : S1x512.Idx → EReal)
    (p q : Fin 512) : EReal :=
  ((∑ k : Fin 512, xb (ix2 p k) * W (ix2 (upper k) q)) + ∑ k : Fin 512, hb (ix2 p k) * W (ix2 (lower k) q))
    + b (ix2 (0 : Fin 1) q)

/-- The load of a weight matrix's upper 512 rows reads row k of the matrix. -/
theorem upper_rows (W : Vec Ideal S1024x512 .bf16) (k q : Fin 512) : View.ld W r0_1 (ix2 k q) = W (ix2 (upper k) q) := by
  show W (r0_1.idx (ix2 k q)) = _
  refine congrArg W (funext fun a => Fin.ext ?_)
  match a with
  | ⟨0, _⟩ => show 0 + 1 * k.val = k.val; omega
  | ⟨1, _⟩ => show 0 + 1 * q.val = q.val; omega

/-- The load of its lower 512 rows reads row 512 + k. -/
theorem lower_rows (W : Vec Ideal S1024x512 .bf16) (k q : Fin 512) : View.ld W r0_2 (ix2 k q) = W (ix2 (lower k) q) := by
  show W (r0_2.idx (ix2 k q)) = _
  refine congrArg W (funext fun a => Fin.ext ?_)
  match a with
  | ⟨0, _⟩ => show 512 + 1 * k.val = 512 + k.val; omega
  | ⟨1, _⟩ => show 0 + 1 * q.val = q.val; omega

/-- The same pre-activation with the weight matrix's two halves given as separate 512 × 512 matrices. -/
def halvesPre (xb hb wu wl : S512x512.Idx → EReal) (b : S1x512.Idx → EReal) (p q : Fin 512) : EReal :=
  ((∑ k : Fin 512, xb (ix2 p k) * wu (ix2 k q)) + ∑ k : Fin 512, hb (ix2 p k) * wl (ix2 k q))
    + b (ix2 (0 : Fin 1) q)

/-- With the halves loaded from one [1024, 512] matrix it is that matrix's pre-activation. -/
theorem halvesPre_loaded (xb hb : S512x512.Idx → EReal) (W : Vec Ideal S1024x512 .bf16) (b : S1x512.Idx → EReal)
    (p q : Fin 512) :
    halvesPre xb hb (View.ld W r0_1) (View.ld W r0_2) b p q = blockPre xb hb W b p q := by
  unfold halvesPre blockPre
  refine congrArg₂ (· + ·) (congrArg₂ (· + ·) ?_ ?_) rfl
  · exact Finset.sum_congr rfl fun k _ => congrArg (xb (ix2 p k) * ·) (upper_rows W k q)
  · exact Finset.sum_congr rfl fun k _ => congrArg (hb (ix2 p k) * ·) (lower_rows W k q)

/-- Two products into zero accumulators, added, plus the bias row spread down the rows, at (p, q). -/
theorem gate_apply (xb hb : FVec Ideal S512x512 .bf16) (wu wl : Vec Ideal S512x512 .bf16) (b : Vec Ideal S1x512 .f32)
    (hc : S512x512.ShapeCasts S512x512) (hb1 : S1x512.ShapeCasts S1x512) (hbc : S1x512.Broadcasts S512x512)
    (p q : Fin 512) :
    addf (F := Ideal) (φ := .f32)
        (addf (matmul (F := Ideal) (φ₁ := .bf16) (φ₂ := .bf16) dot_S512x512_S512x512_S512x512_1_0_0_1_n_n none xb
                (shapeCast S512x512 wu hc) (constant S512x512 .f32 0x00000000#32))
              (matmul (F := Ideal) (φ₁ := .bf16) (φ₂ := .bf16) dot_S512x512_S512x512_S512x512_1_0_0_1_n_n none hb
                (shapeCast S512x512 wl hc) (constant S512x512 .f32 0x00000000#32)))
        (broadcastTo S512x512 (shapeCast S1x512 b hb1) hbc) (ix2 p q)
      = halvesPre xb hb wu wl b p q := by
  rw [shapeCast_self, shapeCast_self, shapeCast_self]
  exact congrArg₂ (· + ·)
    (congrArg₂ (· + ·)
      (Cert.LibDense.matmul_zero_plain dot_S512x512_S512x512_S512x512_1_0_0_1_n_n.wf none xb wu p q)
      (Cert.LibDense.matmul_zero_plain dot_S512x512_S512x512_S512x512_1_0_0_1_n_n.wf none hb wl p q))
    (broadcastTo_1b_ab_apply b hbc p q)

/-- A block's pre-activation is the whole arrays' at batch row r, when the x and h blocks' row p is the arrays'
    row r and the weight and bias blocks are the whole weight matrix and the bias vector. -/
theorem blockPre_eq_gatePre (xb hb : S512x512.Idx → EReal) (Wb : S1024x512.Idx → EReal) (bb : S1x512.Idx → EReal)
    (x h : (⟨2, ![16384, 512]⟩ : Shape).Idx → EReal) (W : (⟨2, ![1024, 512]⟩ : Shape).Idx → EReal)
    (b : (⟨1, ![512]⟩ : Shape).Idx → EReal) (r : Fin 16384) (p q : Fin 512)
    (hx : ∀ k : Fin 512, xb (ix2 p k) = x (ix2 r k)) (hh : ∀ k : Fin 512, hb (ix2 p k) = h (ix2 r k))
    (hW : ∀ k : Fin 1024, Wb (ix2 k q) = W (ix2 k q)) (hbias : bb (ix2 (0 : Fin 1) q) = b (ix1 q)) :
    blockPre xb hb Wb bb p q = Cert.LstmCell.gatePre x h W b r q := by
  unfold blockPre Cert.LstmCell.gatePre
  refine congrArg₂ (· + ·) (congrArg₂ (· + ·) ?_ ?_) hbias
  · exact Finset.sum_congr rfl fun k _ => congrArg₂ (· * ·) (hx k) (hW (upper k))
  · exact Finset.sum_congr rfl fun k _ => congrArg₂ (· * ·) (hh k) (hW (lower k))

/-! ## The body's payloads at (p, q) -/

local notation "dot512" => dot_S512x512_S512x512_S512x512_1_0_0_1_n_n

/-- The input gate (and, with other operands, any logistic gate computed from the freshly loaded blocks): the
    logistic function of the pre-activation. The change of float format of the x and h blocks is the identity. -/
theorem logistic_gate_apply (v0 v2 : Vec Ideal S512x512 .f32) (v4 v6 : Vec Ideal S512x512 .bf16)
    (v11 : Vec Ideal S1x512 .f32) (p q : Fin 512) :
    k0_pay5 (F := Ideal) v0 v2 v4 v6 v11 (ix2 p q) = Ideal.logistic (halvesPre v0 v2 v4 v6 v11 p q) := by
  unfold k0_pay5
  exact congrArg Ideal.logistic (gate_apply (k0_pay3 v0) (k0_pay4 v2) v4 v6 v11 _ _ _ p q)

/-- The forget gate is computed by the same operations from its own weights and bias. -/
theorem forget_gate_apply (v0 v2 : Vec Ideal S512x512 .f32) (v16 v18 : Vec Ideal S512x512 .bf16)
    (v23 : Vec Ideal S1x512 .f32) (p q : Fin 512) :
    k0_pay6 (F := Ideal) v0 v2 v16 v18 v23 (ix2 p q) = Ideal.logistic (halvesPre v0 v2 v16 v18 v23 p q) := by
  unfold k0_pay6
  exact congrArg Ideal.logistic (gate_apply (k0_pay3 v0) (k0_pay4 v2) v16 v18 v23 _ _ _ p q)

/-- The next cell state: forget gate times the old state plus input gate times tanh of the candidate's
    pre-activation. -/
theorem cell_payload_apply (xb hb : FVec Ideal S512x512 .bf16) (ig fg : FVec Ideal S512x512 .f32)
    (v40 v42 : Vec Ideal S512x512 .bf16) (v47 : Vec Ideal S1x512 .f32) (cb : Vec Ideal S512x512 .f32) (p q : Fin 512) :
    k0_pay1 (F := Ideal) xb hb ig fg v40 v42 v47 cb (ix2 p q)
      = fg (ix2 p q) * cb (ix2 p q) + ig (ix2 p q) * Ideal.tanh (halvesPre xb hb v40 v42 v47 p q) := by
  unfold k0_pay1
  exact congrArg (fun z => fg (ix2 p q) * cb (ix2 p q) + ig (ix2 p q) * Ideal.tanh z)
    (gate_apply xb hb v40 v42 v47 _ _ _ p q)

/-- The next hidden state: the output gate (whose first product and second factor arrive already computed) times
    tanh of the next cell state. -/
theorem hidden_payload_apply (xb hb : FVec Ideal S512x512 .bf16) (ig fg : FVec Ideal S512x512 .f32)
    (wu wl : Vec Ideal S512x512 .bf16) (v35 : Vec Ideal S1x512 .f32)
    (v40 v42 : Vec Ideal S512x512 .bf16) (v47 : Vec Ideal S1x512 .f32) (cb : Vec Ideal S512x512 .f32) (p q : Fin 512) :
    k0_pay2 (F := Ideal) xb hb ig fg (k0_pay7 wl)
        (matmul (F := Ideal) (φ₁ := .bf16) (φ₂ := .bf16) dot512 none xb
          (shapeCast S512x512 wu shapeCasts_S512x512_S512x512) (constant S512x512 .f32 0x00000000#32))
        (constant S512x512 .f32 0x00000000#32) v35 v40 v42 v47 cb (ix2 p q)
      = Ideal.logistic (halvesPre xb hb wu wl v35 p q)
          * Ideal.tanh (k0_pay1 (F := Ideal) xb hb ig fg v40 v42 v47 cb (ix2 p q)) := by
  unfold k0_pay2 k0_pay7
  exact congrArg (fun z => Ideal.logistic z * Ideal.tanh (k0_pay1 (F := Ideal) xb hb ig fg v40 v42 v47 cb (ix2 p q)))
    (gate_apply xb hb wu wl v35 _ _ _ p q)

/-! ## The two output blocks -/

/-- The next cell state on a block, at (p, q). -/
def cellBlock (xb hb cb : S512x512.Idx → EReal) (Wi Wf Wc : S1024x512.Idx → EReal) (bi bf bc : S1x512.Idx → EReal)
    (p q : Fin 512) : EReal :=
  Ideal.logistic (blockPre xb hb Wf bf p q) * cb (ix2 p q)
    + Ideal.logistic (blockPre xb hb Wi bi p q) * Ideal.tanh (blockPre xb hb Wc bc p q)

/-- The next hidden state on a block, at (p, q). -/
def hiddenBlock (xb hb cb : S512x512.Idx → EReal) (Wi Wf Wo Wc : S1024x512.Idx → EReal)
    (bi bf bo bc : S1x512.Idx → EReal) (p q : Fin 512) : EReal :=
  Ideal.logistic (blockPre xb hb Wo bo p q) * Ideal.tanh (cellBlock xb hb cb Wi Wf Wc bi bf bc p q)

theorem zero_offsets : (![0, 0] : Fin 2 → Nat) = fun _ => 0 := funext fun a => by fin_cases a <;> rfl

/-- The cell-state payload over the loaded blocks is the block's next cell state. -/
theorem cell_loaded_apply (x0 x1 x2 : Vec Ideal S512x512 .f32) (x3 x4 x6 : Vec Ideal S1024x512 .bf16)
    (x7 x8 x10 : Vec Ideal S1x512 .f32) (p q : Fin 512) :
    k0_pay1 (F := Ideal) (k0_pay3 x0) (k0_pay4 x1) (k0_pay5 x0 x1 (View.ld x3 r0_1) (View.ld x3 r0_2) x7)
        (k0_pay6 x0 x1 (View.ld x4 r0_1) (View.ld x4 r0_2) x8) (View.ld x6 r0_1) (View.ld x6 r0_2) x10 x2 (ix2 p q)
      = cellBlock x0 x1 x2 x3 x4 x6 x7 x8 x10 p q := by
  refine (cell_payload_apply (k0_pay3 x0) (k0_pay4 x1) (k0_pay5 x0 x1 (View.ld x3 r0_1) (View.ld x3 r0_2) x7)
    (k0_pay6 x0 x1 (View.ld x4 r0_1) (View.ld x4 r0_2) x8) (View.ld x6 r0_1) (View.ld x6 r0_2) x10 x2 p q).trans ?_
  unfold cellBlock
  refine congrArg₂ (· + ·) (congrArg₂ (· * ·) ?_ rfl) (congrArg₂ (· * ·) ?_ (congrArg Ideal.tanh ?_))
  · exact (forget_gate_apply x0 x1 (View.ld x4 r0_1) (View.ld x4 r0_2) x8 p q).trans
      (congrArg Ideal.logistic (halvesPre_loaded x0 x1 x4 x8 p q))
  · exact (logistic_gate_apply x0 x1 (View.ld x3 r0_1) (View.ld x3 r0_2) x7 p q).trans
      (congrArg Ideal.logistic (halvesPre_loaded x0 x1 x3 x7 p q))
  · exact halvesPre_loaded x0 x1 x6 x10 p q

/-- What the body leaves in the cell-state output block, at (p, q). -/
theorem cell_out_apply (x0 x1 x2 : Vec Ideal S512x512 .f32) (x3 x4 x5 x6 : Vec Ideal S1024x512 .bf16)
    (x7 x8 x9 x10 : Vec Ideal S1x512 .f32) (p q : Fin 512) :
    out0_12 (F := Ideal) x0 x1 x2 x3 x4 x5 x6 x7 x8 x9 x10 (ix2 p q) = cellBlock x0 x1 x2 x3 x4 x6 x7 x8 x10 p q := by
  unfold out0_12
  rw [View.canon_unit_zero zero_offsets]
  simp only [View.ld_unit_zero (S := S512x512) zero_offsets, View.ld_unit_zero (S := S1x512) zero_offsets]
  exact cell_loaded_apply x0 x1 x2 x3 x4 x6 x7 x8 x10 p q

/-- What the body leaves in the hidden-state output block, at (p, q). -/
theorem hidden_out_apply (x0 x1 x2 : Vec Ideal S512x512 .f32) (x3 x4 x5 x6 : Vec Ideal S1024x512 .bf16)
    (x7 x8 x9 x10 : Vec Ideal S1x512 .f32) (p q : Fin 512) :
    out0_11 (F := Ideal) x0 x1 x2 x3 x4 x5 x6 x7 x8 x9 x10 (ix2 p q)
      = hiddenBlock x0 x1 x2 x3 x4 x5 x6 x7 x8 x9 x10 p q := by
  unfold out0_11
  rw [View.canon_unit_zero zero_offsets]
  simp only [View.ld_unit_zero (S := S512x512) zero_offsets, View.ld_unit_zero (S := S1x512) zero_offsets]
  refine (hidden_payload_apply (k0_pay3 x0) (k0_pay4 x1) (k0_pay5 x0 x1 (View.ld x3 r0_1) (View.ld x3 r0_2) x7)
    (k0_pay6 x0 x1 (View.ld x4 r0_1) (View.ld x4 r0_2) x8) (View.ld x5 r0_1) (View.ld x5 r0_2) x9
    (View.ld x6 r0_1) (View.ld x6 r0_2) x10 x2 p q).trans ?_
  unfold hiddenBlock
  exact congrArg₂ (· * ·) (congrArg Ideal.logistic (halvesPre_loaded x0 x1 x5 x9 p q))
    (congrArg Ideal.tanh (cell_loaded_apply x0 x1 x2 x3 x4 x6 x7 x8 x10 p q))

end Cert.KernelIdeal.Block

end
-- ==== Proof.KernelWhole.lean ====
/-
  From blocks to whole arrays: the kernel's two result arrays after the run are the LSTM cell's two functions of
  the argument arrays.

  The grid has 32 points; point t holds batch rows 512·t … 512·t + 511 of x, h, c and of both results, together with
  the four whole weight matrices and bias rows. Before the region the host only changes the weights' float format
  (the identity on the extended reals) and lays each bias vector out as a [1, 512] row. So what point t writes back
  is block t of the cell's two functions, the 32 blocks cover all 16384 rows, and the arrays end holding those
  functions.
-/
import proofs.«117257_j82669530514116_2_alg».proof.Proof.Gen.KernelIdeal.Value
import proofs.«117257_j82669530514116_2_alg».proof.Proof.KernelBlock
import proofs.«117257_j82669530514116_2_alg».proof.Proof.LstmCell
import Idealize.ShloMosaic.Lib.ValueIdx
import Idealize.ShloMosaic.Lib.Pipeline.Value
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.ValueIdx
open Cert.LstmCell Cert.KernelIdeal.Block
open Idealize.ShloMosaic.Pipeline (Dat)
open scoped BigOperators

variable (m : (ℓ : Loc nD τ sig) → Buf (Elt Ideal) ℓ) (ρ : Dev nD → PrngReg)

/-! ## The arrays as the region finds them -/

/-- The input gate's weights enter the region in the narrower float format: the same numbers. -/
theorem entry_Wi (c : Dev nD) : (V m c main_v0 : S1024x512.Idx → EReal) = m ((c : Thread nD τ).loc main_arg3) := by
  unfold V; after_results; rfl

/-- The forget gate's weights enter the region in the narrower float format: the same numbers. -/
theorem entry_Wf (c : Dev nD) : (V m c main_v1 : S1024x512.Idx → EReal) = m ((c : Thread nD τ).loc main_arg5) := by
  unfold V; after_results; rfl

/-- The output gate's weights enter the region in the narrower float format: the same numbers. -/
theorem entry_Wo (c : Dev nD) : (V m c main_v2 : S1024x512.Idx → EReal) = m ((c : Thread nD τ).loc main_arg7) := by
  unfold V; after_results; rfl

/-- The candidate gate's weights enter the region in the narrower float format: the same numbers. -/
theorem entry_Wc (c : Dev nD) : (V m c main_v3 : S1024x512.Idx → EReal) = m ((c : Thread nD τ).loc main_arg9) := by
  unfold V; after_results; rfl

/-- The input gate's bias enters the region laid out as a [1, 512] row. -/
theorem entry_bi (c : Dev nD) (q : Fin 512) :
    (V m c main_v4 : S1x512.Idx → EReal) (ix2 (0 : Fin 1) q) = m ((c : Thread nD τ).loc main_arg4) (ix1 q) := by
  have e : (V m c main_v4 : S1x512.Idx → EReal)
      = shapeCast S1x512 (m ((c : Thread nD τ).loc main_arg4)) shapeCasts_S512_S1x512 := by
    unfold V; after_results; rfl
  rw [e]
  refine (shapeCast_addUnit_apply ![512] _ shapeCasts_S512_S1x512 (ix2 (0 : Fin 1) q)).trans ?_
  exact congrArg _ (funext fun a => by match a with | ⟨0, _⟩ => rfl)

/-- The forget gate's bias enters the region laid out as a [1, 512] row. -/
theorem entry_bf (c : Dev nD) (q : Fin 512) :
    (V m c main_v5 : S1x512.Idx → EReal) (ix2 (0 : Fin 1) q) = m ((c : Thread nD τ).loc main_arg6) (ix1 q) := by
  have e : (V m c main_v5 : S1x512.Idx → EReal)
      = shapeCast S1x512 (m ((c : Thread nD τ).loc main_arg6)) shapeCasts_S512_S1x512 := by
    unfold V; after_results; rfl
  rw [e]
  refine (shapeCast_addUnit_apply ![512] _ shapeCasts_S512_S1x512 (ix2 (0 : Fin 1) q)).trans ?_
  exact congrArg _ (funext fun a => by match a with | ⟨0, _⟩ => rfl)

/-- The output gate's bias enters the region laid out as a [1, 512] row. -/
theorem entry_bo (c : Dev nD) (q : Fin 512) :
    (V m c main_v6 : S1x512.Idx → EReal) (ix2 (0 : Fin 1) q) = m ((c : Thread nD τ).loc main_arg8) (ix1 q) := by
  have e : (V m c main_v6 : S1x512.Idx → EReal)
      = shapeCast S1x512 (m ((c : Thread nD τ).loc main_arg8)) shapeCasts_S512_S1x512 := by
    unfold V; after_results; rfl
  rw [e]
  refine (shapeCast_addUnit_apply ![512] _ shapeCasts_S512_S1x512 (ix2 (0 : Fin 1) q)).trans ?_
  exact congrArg _ (funext fun a => by match a with | ⟨0, _⟩ => rfl)

/-- The candidate gate's bias enters the region laid out as a [1, 512] row. -/
theorem entry_bc (c : Dev nD) (q : Fin 512) :
    (V m c main_v7 : S1x512.Idx → EReal) (ix2 (0 : Fin 1) q) = m ((c : Thread nD τ).loc main_arg10) (ix1 q) := by
  have e : (V m c main_v7 : S1x512.Idx → EReal)
      = shapeCast S1x512 (m ((c : Thread nD τ).loc main_arg10)) shapeCasts_S512_S1x512 := by
    unfold V; after_results; rfl
  rw [e]
  refine (shapeCast_addUnit_apply ![512] _ shapeCasts_S512_S1x512 (ix2 (0 : Fin 1) q)).trans ?_
  exact congrArg _ (funext fun a => by match a with | ⟨0, _⟩ => rfl)

/-! ## Where each window's block sits -/

/-- The printed index maps, decided over the 32 grid points: the batch windows (x, h, c and both results) sit at
    block row t; the weights and biases are one block that never moves. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = t.val ∧ win0_11.index t (1 : Fin 2) = 0)
    ∧ (win0_12.index t (0 : Fin 2) = t.val ∧ win0_12.index t (1 : Fin 2) = 0) ∧ True :=
  (by decide +kernel : ∀ t : Fin grid0.N, _)

/-- The batch row that row p of point t's blocks is. -/
def row (t : Fin cfg0.N) (p : Fin 512) : Fin 16384 :=
  ⟨512 * t.val + p.val, by have := t.isLt; have h : cfg0.N = 32 := N_0; have := p.isLt; omega⟩

/-- Row p, column k of point t's x block is x at batch row 512·t + p. -/
theorem x_block (c : Dev nD) (t : Fin cfg0.N) (p k : Fin 512) :
    iblk m c 0 t (ix2 p k) = m ((c : Thread nD τ).loc main_arg0) (ix2 (row t p) k) := by
  show V m c main_arg0 (((cfg0.win 0).blk t).view.emb (ix2 p k)) = _
  rw [V_main_arg0]
  obtain ⟨⟨e0, e1⟩, -⟩ := idx_facts t
  refine congrArg _ (funext fun a => Fin.ext ?_)
  match a with
  | ⟨0, _⟩ => show win0_0.index t (0 : Fin 2) * 512 + 1 * p.val = 512 * t.val + p.val; omega
  | ⟨1, _⟩ => show win0_0.index t (1 : Fin 2) * 512 + 1 * k.val = k.val; omega

/-- Row p, column k of point t's h block is h at batch row 512·t + p. -/
theorem h_block (c : Dev nD) (t : Fin cfg0.N) (p k : Fin 512) :
    iblk m c 1 t (ix2 p k) = m ((c : Thread nD τ).loc main_arg1) (ix2 (row t p) k) := by
  show V m c main_arg1 (((cfg0.win 1).blk t).view.emb (ix2 p k)) = _
  rw [V_main_arg1]
  obtain ⟨-, ⟨e0, e1⟩, -⟩ := idx_facts t
  refine congrArg _ (funext fun a => Fin.ext ?_)
  match a with
  | ⟨0, _⟩ => show win0_1.index t (0 : Fin 2) * 512 + 1 * p.val = 512 * t.val + p.val; omega
  | ⟨1, _⟩ => show win0_1.index t (1 : Fin 2) * 512 + 1 * k.val = k.val; omega

/-- Row p, column k of point t's c block is c at batch row 512·t + p. -/
theorem c_block (c : Dev nD) (t : Fin cfg0.N) (p k : Fin 512) :
    iblk m c 2 t (ix2 p k) = m ((c : Thread nD τ).loc main_arg2) (ix2 (row t p) k) := by
  show V m c main_arg2 (((cfg0.win 2).blk t).view.emb (ix2 p k)) = _
  rw [V_main_arg2]
  obtain ⟨-, -, ⟨e0, e1⟩, -⟩ := idx_facts t
  refine congrArg _ (funext fun a => Fin.ext ?_)
  match a with
  | ⟨0, _⟩ => show win0_2.index t (0 : Fin 2) * 512 + 1 * p.val = 512 * t.val + p.val; omega
  | ⟨1, _⟩ => show win0_2.index t (1 : Fin 2) * 512 + 1 * k.val = k.val; omega

/-- The input gate's weight block is its whole weight matrix. -/
theorem Wi_block (c : Dev nD) (t : Fin cfg0.N) (k : Fin 1024) (q : Fin 512) :
    iblk m c 3 t (ix2 k q) = m ((c : Thread nD τ).loc main_arg3) (ix2 k q) := by
  show V m c main_v0 (((cfg0.win 3).blk t).view.emb (ix2 k q)) = _
  rw [entry_Wi]
  obtain ⟨-, -, -, ⟨e0, e1⟩, -⟩ := idx_facts t
  refine congrArg _ (funext fun a => Fin.ext ?_)
  match a with
  | ⟨0, _⟩ => show win0_3.index t (0 : Fin 2) * 1024 + 1 * k.val = k.val; omega
  | ⟨1, _⟩ => show win0_3.index t (1 : Fin 2) * 512 + 1 * q.val = q.val; omega

/-- The forget gate's weight block is its whole weight matrix. -/
theorem Wf_block (c : Dev nD) (t : Fin cfg0.N) (k : Fin 1024) (q : Fin 512) :
    iblk m c 4 t (ix2 k q) = m ((c : Thread nD τ).loc main_arg5) (ix2 k q) := by
  show V m c main_v1 (((cfg0.win 4).blk t).view.emb (ix2 k q)) = _
  rw [entry_Wf]
  obtain ⟨-, -, -, -, ⟨e0, e1⟩, -⟩ := idx_facts t
  refine congrArg _ (funext fun a => Fin.ext ?_)
  match a with
  | ⟨0, _⟩ => show win0_4.index t (0 : Fin 2) * 1024 + 1 * k.val = k.val; omega
  | ⟨1, _⟩ => show win0_4.index t (1 : Fin 2) * 512 + 1 * q.val = q.val; omega

/-- The output gate's weight block is its whole weight matrix. -/
theorem Wo_block (c : Dev nD) (t : Fin cfg0.N) (k : Fin 1024) (q : Fin 512) :
    iblk m c 5 t (ix2 k q) = m ((c : Thread nD τ).loc main_arg7) (ix2 k q) := by
  show V m c main_v2 (((cfg0.win 5).blk t).view.emb (ix2 k q)) = _
  rw [entry_Wo]
  obtain ⟨-, -, -, -, -, ⟨e0, e1⟩, -⟩ := idx_facts t
  refine congrArg _ (funext fun a => Fin.ext ?_)
  match a with
  | ⟨0, _⟩ => show win0_5.index t (0 : Fin 2) * 1024 + 1 * k.val = k.val; omega
  | ⟨1, _⟩ => show win0_5.index t (1 : Fin 2) * 512 + 1 * q.val = q.val; omega

/-- The candidate gate's weight block is its whole weight matrix. -/
theorem Wc_block (c : Dev nD) (t : Fin cfg0.N) (k : Fin 1024) (q : Fin 512) :
    iblk m c 6 t (ix2 k q) = m ((c : Thread nD τ).loc main_arg9) (ix2 k q) := by
  show V m c main_v3 (((cfg0.win 6).blk t).view.emb (ix2 k q)) = _
  rw [entry_Wc]
  obtain ⟨-, -, -, -, -, -, ⟨e0, e1⟩, -⟩ := idx_facts t
  refine congrArg _ (funext fun a => Fin.ext ?_)
  match a with
  | ⟨0, _⟩ => show win0_6.index t (0 : Fin 2) * 1024 + 1 * k.val = k.val; omega
  | ⟨1, _⟩ => show win0_6.index t (1 : Fin 2) * 512 + 1 * q.val = q.val; omega

/-- The input gate's bias block is its bias vector as a row. -/
theorem bi_block (c : Dev nD) (t : Fin cfg0.N) (q : Fin 512) :
    iblk m c 7 t (ix2 (0 : Fin 1) q) = m ((c : Thread nD τ).loc main_arg4) (ix1 q) := by
  show V m c main_v4 (((cfg0.win 7).blk t).view.emb (ix2 (0 : Fin 1) q)) = _
  refine Eq.trans (congrArg _ (funext fun a => Fin.ext ?_)) (entry_bi m c q)
  obtain ⟨-, -, -, -, -, -, -, ⟨e0, e1⟩, -⟩ := idx_facts t
  match a with
  | ⟨0, _⟩ => show win0_7.index t (0 : Fin 2) * 1 + 1 * 0 = 0; omega
  | ⟨1, _⟩ => show win0_7.index t (1 : Fin 2) * 512 + 1 * q.val = q.val; omega

/-- The forget gate's bias block is its bias vector as a row. -/
theorem bf_block (c : Dev nD) (t : Fin cfg0.N) (q : Fin 512) :
    iblk m c 8 t (ix2 (0 : Fin 1) q) = m ((c : Thread nD τ).loc main_arg6) (ix1 q) := by
  show V m c main_v5 (((cfg0.win 8).blk t).view.emb (ix2 (0 : Fin 1) q)) = _
  refine Eq.trans (congrArg _ (funext fun a => Fin.ext ?_)) (entry_bf m c q)
  obtain ⟨-, -, -, -, -, -, -, -, ⟨e0, e1⟩, -⟩ := idx_facts t
  match a with
  | ⟨0, _⟩ => show win0_8.index t (0 : Fin 2) * 1 + 1 * 0 = 0; omega
  | ⟨1, _⟩ => show win0_8.index t (1 : Fin 2) * 512 + 1 * q.val = q.val; omega

/-- The output gate's bias block is its bias vector as a row. -/
theorem bo_block (c : Dev nD) (t : Fin cfg0.N) (q : Fin 512) :
    iblk m c 9 t (ix2 (0 : Fin 1) q) = m ((c : Thread nD τ).loc main_arg8) (ix1 q) := by
  show V m c main_v6 (((cfg0.win 9).blk t).view.emb (ix2 (0 : Fin 1) q)) = _
  refine Eq.trans (congrArg _ (funext fun a => Fin.ext ?_)) (entry_bo m c q)
  obtain ⟨-, -, -, -, -, -, -, -, -, ⟨e0, e1⟩, -⟩ := idx_facts t
  match a with
  | ⟨0, _⟩ => show win0_9.index t (0 : Fin 2) * 1 + 1 * 0 = 0; omega
  | ⟨1, _⟩ => show win0_9.index t (1 : Fin 2) * 512 + 1 * q.val = q.val; omega

/-- The candidate gate's bias block is its bias vector as a row. -/
theorem bc_block (c : Dev nD) (t : Fin cfg0.N) (q : Fin 512) :
    iblk m c 10 t (ix2 (0 : Fin 1) q) = m ((c : Thread nD τ).loc main_arg10) (ix1 q) := by
  show V m c main_v7 (((cfg0.win 10).blk t).view.emb (ix2 (0 : Fin 1) q)) = _
  refine Eq.trans (congrArg _ (funext fun a => Fin.ext ?_)) (entry_bc m c q)
  obtain ⟨-, -, -, -, -, -, -, -, -, -, ⟨e0, e1⟩, -⟩ := idx_facts t
  match a with
  | ⟨0, _⟩ => show win0_10.index t (0 : Fin 2) * 1 + 1 * 0 = 0; omega
  | ⟨1, _⟩ => show win0_10.index t (1 : Fin 2) * 512 + 1 * q.val = q.val; omega

/-! ## Each gate's pre-activation, block against whole arrays -/

/-- The input gate's pre-activation on point t's blocks is the whole arrays' at batch row 512·t + p. -/
theorem pre_i (c : Dev nD) (t : Fin cfg0.N) (p q : Fin 512) :
    blockPre (iblk m c 0 t) (iblk m c 1 t) (iblk m c 3 t) (iblk m c 7 t) p q
      = gatePre (m ((c : Thread nD τ).loc main_arg0)) (m ((c : Thread nD τ).loc main_arg1)) (m ((c : Thread nD τ).loc main_arg3)) (m ((c : Thread nD τ).loc main_arg4)) (row t p) q :=
  blockPre_eq_gatePre (iblk m c 0 t) (iblk m c 1 t) (iblk m c 3 t) (iblk m c 7 t)
    (m ((c : Thread nD τ).loc main_arg0)) (m ((c : Thread nD τ).loc main_arg1)) (m ((c : Thread nD τ).loc main_arg3)) (m ((c : Thread nD τ).loc main_arg4)) (row t p) p q
    (fun k => x_block m c t p k) (fun k => h_block m c t p k) (fun k => Wi_block m c t k q) (bi_block m c t q)

/-- The forget gate's pre-activation on point t's blocks is the whole arrays' at batch row 512·t + p. -/
theorem pre_f (c : Dev nD) (t : Fin cfg0.N) (p q : Fin 512) :
    blockPre (iblk m c 0 t) (iblk m c 1 t) (iblk m c 4 t) (iblk m c 8 t) p q
      = gatePre (m ((c : Thread nD τ).loc main_arg0)) (m ((c : Thread nD τ).loc main_arg1)) (m ((c : Thread nD τ).loc main_arg5)) (m ((c : Thread nD τ).loc main_arg6)) (row t p) q :=
  blockPre_eq_gatePre (iblk m c 0 t) (iblk m c 1 t) (iblk m c 4 t) (iblk m c 8 t)
    (m ((c : Thread nD τ).loc main_arg0)) (m ((c : Thread nD τ).loc main_arg1)) (m ((c : Thread nD τ).loc main_arg5)) (m ((c : Thread nD τ).loc main_arg6)) (row t p) p q
    (fun k => x_block m c t p k) (fun k => h_block m c t p k) (fun k => Wf_block m c t k q) (bf_block m c t q)

/-- The output gate's pre-activation on point t's blocks is the whole arrays' at batch row 512·t + p. -/
theorem pre_o (c : Dev nD) (t : Fin cfg0.N) (p q : Fin 512) :
    blockPre (iblk m c 0 t) (iblk m c 1 t) (iblk m c 5 t) (iblk m c 9 t) p q
      = gatePre (m ((c : Thread nD τ).loc main_arg0)) (m ((c : Thread nD τ).loc main_arg1)) (m ((c : Thread nD τ).loc main_arg7)) (m ((c : Thread nD τ).loc main_arg8)) (row t p) q :=
  blockPre_eq_gatePre (iblk m c 0 t) (iblk m c 1 t) (iblk m c 5 t) (iblk m c 9 t)
    (m ((c : Thread nD τ).loc main_arg0)) (m ((c : Thread nD τ).loc main_arg1)) (m ((c : Thread nD τ).loc main_arg7)) (m ((c : Thread nD τ).loc main_arg8)) (row t p) p q
    (fun k => x_block m c t p k) (fun k => h_block m c t p k) (fun k => Wo_block m c t k q) (bo_block m c t q)

/-- The candidate gate's pre-activation on point t's blocks is the whole arrays' at batch row 512·t + p. -/
theorem pre_c (c : Dev nD) (t : Fin cfg0.N) (p q : Fin 512) :
    blockPre (iblk m c 0 t) (iblk m c 1 t) (iblk m c 6 t) (iblk m c 10 t) p q
      = gatePre (m ((c : Thread nD τ).loc main_arg0)) (m ((c : Thread nD τ).loc main_arg1)) (m ((c : Thread nD τ).loc main_arg9)) (m ((c : Thread nD τ).loc main_arg10)) (row t p) q :=
  blockPre_eq_gatePre (iblk m c 0 t) (iblk m c 1 t) (iblk m c 6 t) (iblk m c 10 t)
    (m ((c : Thread nD τ).loc main_arg0)) (m ((c : Thread nD τ).loc main_arg1)) (m ((c : Thread nD τ).loc main_arg9)) (m ((c : Thread nD τ).loc main_arg10)) (row t p) p q
    (fun k => x_block m c t p k) (fun k => h_block m c t p k) (fun k => Wc_block m c t k q) (bc_block m c t q)

/-! ## What each point writes back -/

/-- Row p, column q of point t's result blocks is the result arrays' index (512·t + p, q). -/
theorem hidden_emb (t : Fin cfg0.N) (p q : Fin 512) :
    ((cfg0.win 11).blk t).view.emb (ix2 p q) = ix2 (row t p) q := by
  obtain ⟨-, -, -, -, -, -, -, -, -, -, -, ⟨e0, e1⟩, -⟩ := idx_facts t
  refine funext fun a => Fin.ext ?_
  match a with
  | ⟨0, _⟩ => show win0_11.index t (0 : Fin 2) * 512 + 1 * p.val = 512 * t.val + p.val; omega
  | ⟨1, _⟩ => show win0_11.index t (1 : Fin 2) * 512 + 1 * q.val = q.val; omega

theorem cell_emb (t : Fin cfg0.N) (p q : Fin 512) :
    ((cfg0.win 12).blk t).view.emb (ix2 p q) = ix2 (row t p) q := by
  obtain ⟨-, -, -, -, -, -, -, -, -, -, -, -, ⟨e0, e1⟩, -⟩ := idx_facts t
  refine funext fun a => Fin.ext ?_
  match a with
  | ⟨0, _⟩ => show win0_12.index t (0 : Fin 2) * 512 + 1 * p.val = 512 * t.val + p.val; omega
  | ⟨1, _⟩ => show win0_12.index t (1 : Fin 2) * 512 + 1 * q.val = q.val; omega

/-- The next cell state on point t's blocks is the whole arrays' at batch row 512·t + p. -/
theorem cell_block (c : Dev nD) (t : Fin cfg0.N) (p q : Fin 512) :
    cellBlock (iblk m c 0 t) (iblk m c 1 t) (iblk m c 2 t) (iblk m c 3 t) (iblk m c 4 t) (iblk m c 6 t)
        (iblk m c 7 t) (iblk m c 8 t) (iblk m c 10 t) p q
      = cellAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) (row t p) q := by
  unfold cellBlock cellAt
  exact congrArg₂ (· + ·)
    (congrArg₂ (· * ·) (congrArg Ideal.logistic (pre_f m c t p q)) (c_block m c t p q))
    (congrArg₂ (· * ·) (congrArg Ideal.logistic (pre_i m c t p q)) (congrArg Ideal.tanh (pre_c m c t p q)))

/-- The next hidden state on point t's blocks is the whole arrays' at batch row 512·t + p. -/
theorem hidden_block (c : Dev nD) (t : Fin cfg0.N) (p q : Fin 512) :
    hiddenBlock (iblk m c 0 t) (iblk m c 1 t) (iblk m c 2 t) (iblk m c 3 t) (iblk m c 4 t) (iblk m c 5 t) (iblk m c 6 t) (iblk m c 7 t) (iblk m c 8 t) (iblk m c 9 t) (iblk m c 10 t) p q
      = hiddenAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (row t p) q := by
  unfold hiddenBlock hiddenAt
  exact congrArg₂ (· * ·) (congrArg Ideal.logistic (pre_o m c t p q)) (congrArg Ideal.tanh (cell_block m c t p q))

/-- Point t writes back block t of the next cell state. -/
theorem cell_flushed (c : Dev nD) (t : Fin cfg0.N) :
    (dats m 0 c).flushed 12 t = ((cfg0.win 12).blk t).view.read (Elt Ideal)
      (cellNext (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10))) := by
  rw [Value.flushed12]
  funext y
  obtain ⟨p, q, rfl⟩ : ∃ (p q : Fin 512), y = ix2 p q := ⟨y 0, y 1, eq_ix2 (n0 := 512) (n1 := 512) y⟩
  show out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 p q)
    = cellNext (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) (((cfg0.win 12).blk t).view.emb (ix2 p q))
  rw [cell_emb]
  exact (cell_out_apply (iblk m c 0 t) (iblk m c 1 t) (iblk m c 2 t) (iblk m c 3 t) (iblk m c 4 t) (iblk m c 5 t) (iblk m c 6 t) (iblk m c 7 t) (iblk m c 8 t) (iblk m c 9 t) (iblk m c 10 t) p q).trans (cell_block m c t p q)

/-- Point t writes back block t of the next hidden state. -/
theorem hidden_flushed (c : Dev nD) (t : Fin cfg0.N) :
    (dats m 0 c).flushed 11 t = ((cfg0.win 11).blk t).view.read (Elt Ideal)
      (hiddenNext (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  rw [Value.flushed11]
  funext y
  obtain ⟨p, q, rfl⟩ : ∃ (p q : Fin 512), y = ix2 p q := ⟨y 0, y 1, eq_ix2 (n0 := 512) (n1 := 512) y⟩
  show out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 p q)
    = hiddenNext (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (((cfg0.win 11).blk t).view.emb (ix2 p q))
  rw [hidden_emb]
  exact (hidden_out_apply (iblk m c 0 t) (iblk m c 1 t) (iblk m c 2 t) (iblk m c 3 t) (iblk m c 4 t) (iblk m c 5 t) (iblk m c 6 t) (iblk m c 7 t) (iblk m c 8 t) (iblk m c 9 t) (iblk m c 10 t) p q).trans (hidden_block m c t p q)

/-! ## The blocks cover the arrays -/

/-- An index of a result array is in point t's block iff each coordinate is in the block's range on its axis. -/
theorem mem_hidden_blk (t : Fin cfg0.N) (i : S16384x512.Idx) :
    i ∈ ((cfg0.win 11).blk t).view.set ↔ ∀ a : Fin 2, win0_11.index t a * S512x512.size a ≤ (i a).val
      ∧ (i a).val < win0_11.index t a * S512x512.size a + S512x512.size a := by
  show i ∈ ((View.whole main_v8_0).slice (win0_11.rect t)).set ↔ _
  rw [View.set_slice_whole, Rect.mem_set_unit]
  exact Iff.rfl

theorem mem_cell_blk (t : Fin cfg0.N) (i : S16384x512.Idx) :
    i ∈ ((cfg0.win 12).blk t).view.set ↔ ∀ a : Fin 2, win0_12.index t a * S512x512.size a ≤ (i a).val
      ∧ (i a).val < win0_12.index t a * S512x512.size a + S512x512.size a := by
  show i ∈ ((View.whole main_v8_1).slice (win0_12.rect t)).set ↔ _
  rw [View.set_slice_whole, Rect.mem_set_unit]
  exact Iff.rfl

/-- The point whose block holds batch row r: r / 512. -/
def pointOf (i : S16384x512.Idx) : Fin cfg0.N :=
  ⟨(i 0).val / 512, by have h : cfg0.N = 32 := N_0; have hi : (i 0).val < 16384 := (i 0).isLt; omega⟩

/-- Every index of the hidden-state array is in the block of the point its row names. -/
theorem hidden_cover (i : S16384x512.Idx) :
    ∃ t : Fin cfg0.N, (cfg0.win 11).flush t = true ∧ i ∈ ((cfg0.win 11).blk t).view.set := by
  refine ⟨pointOf i, flush0_11 _, ?_⟩
  rw [mem_hidden_blk]
  obtain ⟨-, -, -, -, -, -, -, -, -, -, -, ⟨e0, e1⟩, -⟩ := idx_facts (pointOf i)
  have ht : (pointOf i).val = (i 0).val / 512 := rfl
  have hi1 : (i 1).val < 512 := (i 1).isLt
  intro a
  match a with
  | ⟨0, _⟩ =>
    show win0_11.index (pointOf i) (0 : Fin 2) * 512 ≤ (i 0).val
      ∧ (i 0).val < win0_11.index (pointOf i) (0 : Fin 2) * 512 + 512
    omega
  | ⟨1, _⟩ =>
    show win0_11.index (pointOf i) (1 : Fin 2) * 512 ≤ (i 1).val
      ∧ (i 1).val < win0_11.index (pointOf i) (1 : Fin 2) * 512 + 512
    omega

/-- Every index of the cell-state array is in the block of the point its row names. -/
theorem cell_cover (i : S16384x512.Idx) :
    ∃ t : Fin cfg0.N, (cfg0.win 12).flush t = true ∧ i ∈ ((cfg0.win 12).blk t).view.set := by
  refine ⟨pointOf i, flush0_12 _, ?_⟩
  rw [mem_cell_blk]
  obtain ⟨-, -, -, -, -, -, -, -, -, -, -, -, ⟨e0, e1⟩, -⟩ := idx_facts (pointOf i)
  have ht : (pointOf i).val = (i 0).val / 512 := rfl
  have hi1 : (i 1).val < 512 := (i 1).isLt
  intro a
  match a with
  | ⟨0, _⟩ =>
    show win0_12.index (pointOf i) (0 : Fin 2) * 512 ≤ (i 0).val
      ∧ (i 0).val < win0_12.index (pointOf i) (0 : Fin 2) * 512 + 512
    omega
  | ⟨1, _⟩ =>
    show win0_12.index (pointOf i) (1 : Fin 2) * 512 ≤ (i 1).val
      ∧ (i 1).val < win0_12.index (pointOf i) (1 : Fin 2) * 512 + 512
    omega

/-! ## The arrays after the run -/

/-- The hidden-state array ends holding the next hidden state of the argument arrays. -/
theorem hidden_final (c : Dev nD) :
    (dats m 0 c).arrAt 11 cfg0.N = hiddenNext (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (dats m 0 c).arrAt_eq_of_cover 11 _ (fun t _ => hidden_flushed m c t) hidden_cover

/-- The cell-state array ends holding the next cell state of the argument arrays. -/
theorem cell_final (c : Dev nD) :
    (dats m 0 c).arrAt 12 cfg0.N = cellNext (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) :=
  (dats m 0 c).arrAt_eq_of_cover 12 _ (fun t _ => cell_flushed m c t) cell_cover

/-- The kernel's run: every weakly fair execution terminates with the two result arrays at the LSTM cell's two
    functions of the argument arrays, and the arguments unchanged. -/
theorem run : θ_run defs (onTc (τ := τ) (main (F := Ideal))) ⟨m, fun _ => 0, ρ⟩ fun r => ∀ c : Dev nD,
      r.2.mem ((c : Thread nD τ).loc main_v8_0) = hiddenNext (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c : Thread nD τ).loc main_v8_1) = cellNext (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (hidden_final m c), (h c).2.1.trans (cell_final m c), (h c).2.2⟩)
    (Value.run_blocks m ρ)

end Cert.KernelIdeal.Whole

end
-- ==== Proof.LibSplitDense.lean ====
/-
  General lemmas for a dense layer applied to two feature blocks laid side by side, over variable extents.

  * `sliceRows_apply`: rows `o … o + R' − 1` cut out of an [R, C] matrix, read at (k, j), are the matrix at (o + k, j).
  * `sum_split`: a sum over `Fin c` with `a + b = c` is the sum over the first `a` indices plus the sum over the
    last `b`, in any additive commutative monoid (no cancellation is used, so it holds on the extended reals).
  * `concat_dense_sum`: for [n, a] and [n, b] matrices x, y laid side by side along axis 1 and a weight matrix
    [c, N] with a + b = c,  ∑ₖ concat(x, y)(r, k) · W(k, j) = ∑ₖ x(r, k) · W(k, j) + ∑ₖ y(r, k) · W(a + k, j):
    the product with the stacked weights is the sum of the two products with the weights' upper and lower row blocks.
-/
import Idealize.ShloMosaic.Lib.ValueIdx
import Idealize.ShloMosaic.Lib.Pipeline.Value
import Idealize.ShloMosaic.PureOps.Ideal.Laws
import proofs.«117257_j82669530514116_2_alg».proof.Proof.LibDense

noncomputable section

namespace Cert.LibSplitDense

open Idealize.ShloMosaic Idealize.ShloMosaic.ValueIdx
open scoped BigOperators

/-- Rows `o … o + R' − 1` of an `[R, C]` matrix, read at `(k, j)`: the matrix at `(o + k, j)`. -/
theorem sliceRows_apply {α : Type} {R R' C : ℕ} (o : ℕ) (v : (⟨2, ![R, C]⟩ : Shape).Idx → α)
    (h : (⟨2, ![R, C]⟩ : Shape).Slices ![o, 0] ⟨2, ![R', C]⟩) (k : Fin R') (j : Fin C) (hk : o + k.val < R) :
    extractStridedSlice ⟨2, ![R', C]⟩ ![o, 0] v h (ix2 k j) = v (ix2 ⟨o + k.val, hk⟩ j) :=
  extractStridedSlice_apply ![o, 0] v h (ix2 k j) (ix2 ⟨o + k.val, hk⟩ j) (fun a => match a with
    | ⟨0, _⟩ => rfl
    | ⟨1, _⟩ => by show j.val = 0 + j.val; omega)

/-- A sum over `a + b` indices is the sum over the first `a` plus the sum over the last `b`. -/
theorem sum_split {M : Type*} [AddCommMonoid M] {a b c : ℕ} (hc : a + b = c) (f : Fin c → M) :
    ∑ k : Fin c, f k
      = (∑ k : Fin a, f ⟨k.val, by have := k.isLt; omega⟩) + ∑ k : Fin b, f ⟨a + k.val, by have := k.isLt; omega⟩ := by
  subst hc
  exact Fin.sum_univ_add f

/-- The product of two side-by-side feature blocks with a stacked weight matrix, at (r, j): the first block against the
    weights' upper rows plus the second block against the lower rows. -/
theorem concat_dense_sum {n a b c N : ℕ} (hc : a + b = c)
    (x : (⟨2, ![n, a]⟩ : Shape).Idx → EReal) (y : (⟨2, ![n, b]⟩ : Shape).Idx → EReal)
    (h : Shape.Concatenates [(⟨2, ![n, a]⟩ : Shape), ⟨2, ![n, b]⟩] ⟨2, ![n, c]⟩ 1)
    (W : (⟨2, ![c, N]⟩ : Shape).Idx → EReal) (r : Fin n) (j : Fin N) :
    ∑ k : Fin c, concatenate (⟨2, ![n, c]⟩ : Shape) 1 [⟨⟨2, ![n, a]⟩, x⟩, ⟨⟨2, ![n, b]⟩, y⟩] h (ix2 r k) * W (ix2 k j)
      = (∑ k : Fin a, x (ix2 r k) * W (ix2 (⟨k.val, by have := k.isLt; omega⟩ : Fin c) j))
        + ∑ k : Fin b, y (ix2 r k) * W (ix2 (⟨a + k.val, by have := k.isLt; omega⟩ : Fin c) j) := by
  rw [sum_split hc]
  refine congrArg₂ (· + ·) (Finset.sum_congr rfl fun k _ => ?_) (Finset.sum_congr rfl fun k _ => ?_)
  · rw [Cert.LibDense.concat_cols_apply hc x y h r, dif_pos (show (⟨k.val, _⟩ : Fin c).val < a from k.isLt)]
  · rw [Cert.LibDense.concat_cols_apply hc x y h r,
      dif_neg (show ¬ (⟨a + k.val, _⟩ : Fin c).val < a from by show ¬ a + k.val < a; omega)]
    refine congrArg (fun t => y (ix2 r t) * _) (Fin.ext ?_)
    show a + k.val - a = k.val
    omega

end Cert.LibSplitDense

end
-- ==== Proof.LibTiles.lean ====
/-
  Tiles of matrices read at an index, over variable extents. A block of columns cut out of a matrix reads the matrix
  at the shifted column. A plain matrix product into a zero accumulator, at the extended reals, is at (p, c) the sum
  over the shared axis of the left factor's row p times the right factor's column c. A four-term sum written as a left
  nest, alone or on top of a first term, is the sum over `Fin 4`. The float words of 0 and 1 are 0 and 1.
-/
import Idealize.ShloMosaic.PureOps.Ideal.Laws
import Idealize.ShloMosaic.Lib.ValueIdx
import Idealize.ShloMosaic.Lib.Pipeline.Value

noncomputable section

namespace Cert.LibTiles

open Idealize.ShloMosaic Idealize.ShloMosaic.ValueIdx
open scoped BigOperators

variable {α : Type}

/-- Columns `o … o + C' − 1` of an `[R, C]` matrix, read at `(p, j)`: the matrix at `(p, o + j)`. -/
theorem sliceCols_apply {R C C' : ℕ} (o : ℕ) (v : (⟨2, ![R, C]⟩ : Shape).Idx → α)
    (h : (⟨2, ![R, C]⟩ : Shape).Slices ![0, o] ⟨2, ![R, C']⟩) (p : Fin R) (j : Fin C') (hj : o + j.val < C) :
    extractStridedSlice ⟨2, ![R, C']⟩ ![0, o] v h (ix2 p j) = v (ix2 p ⟨o + j.val, hj⟩) :=
  extractStridedSlice_apply ![0, o] v h (ix2 p j) (ix2 p ⟨o + j.val, hj⟩) (fun a => match a with
    | ⟨0, _⟩ => by show p.val = 0 + p.val; omega
    | ⟨1, _⟩ => rfl)

/-- A plain `[M, K] · [K, N]` product into the zero accumulator, read at `(p, c)` at the extended reals: the sum over
    the shared axis. The four hypotheses say which coordinates the product's dimension numbers pair up. -/
theorem matmul_plain_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![M, K]⟩ φ₁) (rhs : FVec Ideal ⟨2, ![K, N]⟩ φ₂) (p : Fin M) (c : Fin N) :
    matmul d prec lhs rhs (constant (F := Ideal) ⟨2, ![M, N]⟩ .f32 0x00000000#32) (ix2 p c)
      = ∑ k : Fin K, lhs (ix2 p k) * rhs (ix2 k c) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p c) ((contrEquiv1 d K hr hs).symm k) = ix2 p k := funext fun a => Fin.ext (by
    match a with
    | ⟨0, _⟩ => exact hl0 _ _
    | ⟨1, _⟩ => exact (hl1 _ _).trans hk)
  have er : d.rhsIdx (ix2 p c) ((contrEquiv1 d K hr hs).symm k) = ix2 k c := funext fun a => Fin.ext (by
    match a with
    | ⟨0, _⟩ => exact (hr0 _ _).trans hk
    | ⟨1, _⟩ => exact hr1 _ _)
  rw [el, er]

/-- Four terms added left to right are their sum over `Fin 4`. -/
theorem sum4_nest {M : Type*} [AddCommMonoid M] (f : Fin 4 → M) : ((f 0 + f 1) + f 2) + f 3 = ∑ k : Fin 4, f k :=
  (Fin.sum_univ_four f).symm

/-- Four terms added one after another on top of a first one are the first plus their sum over `Fin 4`. -/
theorem acc4_nest {M : Type*} [AddCommMonoid M] (a : M) (f : Fin 4 → M) :
    (((a + f 0) + f 1) + f 2) + f 3 = a + ∑ k : Fin 4, f k := by
  rw [Fin.sum_univ_four, add_assoc, add_assoc, add_assoc, add_assoc, add_assoc]

/-- The f32 word `0x3F800000` is the number one. -/
theorem one_f32 : Ideal.ofBits .f32 0x3F800000#32 = 1 := by
  simp [Ideal.ofBits, Ideal.ieee, -EReal.coe_mul]; norm_num

end Cert.LibTiles

end
-- ==== Proof.ReferenceCell.lean ====
/-
  The reference computes the LSTM cell's two functions.

  The reference lays x and h side by side into a [16384, 1024] matrix, the four weight matrices side by side into
  [1024, 2048], the four biases end to end into [2048], forms ONE product plus bias, and cuts the result into four
  [16384, 512] column blocks, one per gate. Column 512·g + j of the fused product at row r is
      Σ_{k<1024} (x|h)(r,k) · W_g(k,j) + b_g(j) = (Σ_{k<512} x(r,k)·W_g(k,j) + Σ_{k<512} h(r,k)·W_g(512+k,j)) + b_g(j):
  a sum over 1024 indices is the sum over the first 512 plus the sum over the last 512 (no cancellation, so it holds
  with infinite terms too). The logistic function is spelled 1/(1 + exp(−z)) with the float word of 1.
-/
import proofs.«117257_j82669530514116_2_alg».proof.Proof.Gen.ReferenceIdeal.Read
import proofs.«117257_j82669530514116_2_alg».proof.Proof.LibDense
import proofs.«117257_j82669530514116_2_alg».proof.Proof.LibSplitDense
import proofs.«117257_j82669530514116_2_alg».proof.Proof.LibTiles
import proofs.«117257_j82669530514116_2_alg».proof.Proof.LstmCell
import Idealize.ShloMosaic.Lib.ValueIdx
import Idealize.ShloMosaic.Lib.Pipeline.Value

noncomputable section

namespace Cert.ReferenceIdeal.Cell

open Cert.ReferenceIdeal Cert.ReferenceIdeal.Read Idealize.ShloMosaic Idealize.ShloMosaic.ValueIdx
open Cert.LstmCell
open scoped BigOperators

/-! ## The laid-out weights and biases -/

/-- Column 0 + j of the four weight matrices laid side by side is column j of the input gate's. -/
theorem weights_i (x3 x5 x7 x9 : (⟨S1024x512, .f32⟩ : BufTy).Contents (Elt Ideal)) (k : Fin 1024) (j : Fin 512) :
    val_main_v1 (F := Ideal) x3 x5 x7 x9 (ix2 k (⟨j.val, by have := j.isLt; omega⟩ : Fin 2048)) = x3 (ix2 k j) := by
  unfold val_main_v1
  exact concatenate_apply_piece 1 _ _ (ix2 k (⟨j.val, by have := j.isLt; omega⟩ : Fin 2048)) 0 (by show 0 < 4; omega) S1024x512 x3 rfl rfl
    0 rfl (ix2 k j) (fun b hb => by match b with | ⟨0, _⟩ => rfl | ⟨1, _⟩ => exact absurd rfl hb)
    (by show 0 + j.val = j.val; omega)

/-- Entry 0 + j of the four bias vectors laid end to end is entry j of the input gate's. -/
theorem bias_i (x4 x6 x8 x10 : (⟨S512, .f32⟩ : BufTy).Contents (Elt Ideal)) (j : Fin 512) :
    val_main_v2 (F := Ideal) x4 x6 x8 x10 (ix1 (⟨j.val, by have := j.isLt; omega⟩ : Fin 2048)) = x4 (ix1 j) := by
  unfold val_main_v2
  exact concatenate_apply_piece 0 _ _ (ix1 (⟨j.val, by have := j.isLt; omega⟩ : Fin 2048)) 0 (by show 0 < 4; omega) S512 x4 rfl rfl
    0 rfl (ix1 j) (fun b hb => by match b with | ⟨0, _⟩ => exact absurd rfl hb)
    (by show 0 + j.val = j.val; omega)

/-- Column 512 + j of the four weight matrices laid side by side is column j of the forget gate's. -/
theorem weights_f (x3 x5 x7 x9 : (⟨S1024x512, .f32⟩ : BufTy).Contents (Elt Ideal)) (k : Fin 1024) (j : Fin 512) :
    val_main_v1 (F := Ideal) x3 x5 x7 x9 (ix2 k (⟨512 + j.val, by have := j.isLt; omega⟩ : Fin 2048)) = x5 (ix2 k j) := by
  unfold val_main_v1
  exact concatenate_apply_piece 1 _ _ (ix2 k (⟨512 + j.val, by have := j.isLt; omega⟩ : Fin 2048)) 1 (by show 1 < 4; omega) S1024x512 x5 rfl rfl
    512 rfl (ix2 k j) (fun b hb => by match b with | ⟨0, _⟩ => rfl | ⟨1, _⟩ => exact absurd rfl hb)
    (by show 512 + j.val = 512 + j.val; omega)

/-- Entry 512 + j of the four bias vectors laid end to end is entry j of the forget gate's. -/
theorem bias_f (x4 x6 x8 x10 : (⟨S512, .f32⟩ : BufTy).Contents (Elt Ideal)) (j : Fin 512) :
    val_main_v2 (F := Ideal) x4 x6 x8 x10 (ix1 (⟨512 + j.val, by have := j.isLt; omega⟩ : Fin 2048)) = x6 (ix1 j) := by
  unfold val_main_v2
  exact concatenate_apply_piece 0 _ _ (ix1 (⟨512 + j.val, by have := j.isLt; omega⟩ : Fin 2048)) 1 (by show 1 < 4; omega) S512 x6 rfl rfl
    512 rfl (ix1 j) (fun b hb => by match b with | ⟨0, _⟩ => exact absurd rfl hb)
    (by show 512 + j.val = 512 + j.val; omega)

/-- Column 1024 + j of the four weight matrices laid side by side is column j of the output gate's. -/
theorem weights_o (x3 x5 x7 x9 : (⟨S1024x512, .f32⟩ : BufTy).Contents (Elt Ideal)) (k : Fin 1024) (j : Fin 512) :
    val_main_v1 (F := Ideal) x3 x5 x7 x9 (ix2 k (⟨1024 + j.val, by have := j.isLt; omega⟩ : Fin 2048)) = x7 (ix2 k j) := by
  unfold val_main_v1
  exact concatenate_apply_piece 1 _ _ (ix2 k (⟨1024 + j.val, by have := j.isLt; omega⟩ : Fin 2048)) 2 (by show 2 < 4; omega) S1024x512 x7 rfl rfl
    1024 rfl (ix2 k j) (fun b hb => by match b with | ⟨0, _⟩ => rfl | ⟨1, _⟩ => exact absurd rfl hb)
    (by show 1024 + j.val = 1024 + j.val; omega)

/-- Entry 1024 + j of the four bias vectors laid end to end is entry j of the output gate's. -/
theorem bias_o (x4 x6 x8 x10 : (⟨S512, .f32⟩ : BufTy).Contents (Elt Ideal)) (j : Fin 512) :
    val_main_v2 (F := Ideal) x4 x6 x8 x10 (ix1 (⟨1024 + j.val, by have := j.isLt; omega⟩ : Fin 2048)) = x8 (ix1 j) := by
  unfold val_main_v2
  exact concatenate_apply_piece 0 _ _ (ix1 (⟨1024 + j.val, by have := j.isLt; omega⟩ : Fin 2048)) 2 (by show 2 < 4; omega) S512 x8 rfl rfl
    1024 rfl (ix1 j) (fun b hb => by match b with | ⟨0, _⟩ => exact absurd rfl hb)
    (by show 1024 + j.val = 1024 + j.val; omega)

/-- Column 1536 + j of the four weight matrices laid side by side is column j of the candidate gate's. -/
theorem weights_c (x3 x5 x7 x9 : (⟨S1024x512, .f32⟩ : BufTy).Contents (Elt Ideal)) (k : Fin 1024) (j : Fin 512) :
    val_main_v1 (F := Ideal) x3 x5 x7 x9 (ix2 k (⟨1536 + j.val, by have := j.isLt; omega⟩ : Fin 2048)) = x9 (ix2 k j) := by
  unfold val_main_v1
  exact concatenate_apply_piece 1 _ _ (ix2 k (⟨1536 + j.val, by have := j.isLt; omega⟩ : Fin 2048)) 3 (by show 3 < 4; omega) S1024x512 x9 rfl rfl
    1536 rfl (ix2 k j) (fun b hb => by match b with | ⟨0, _⟩ => rfl | ⟨1, _⟩ => exact absurd rfl hb)
    (by show 1536 + j.val = 1536 + j.val; omega)

/-- Entry 1536 + j of the four bias vectors laid end to end is entry j of the candidate gate's. -/
theorem bias_c (x4 x6 x8 x10 : (⟨S512, .f32⟩ : BufTy).Contents (Elt Ideal)) (j : Fin 512) :
    val_main_v2 (F := Ideal) x4 x6 x8 x10 (ix1 (⟨1536 + j.val, by have := j.isLt; omega⟩ : Fin 2048)) = x10 (ix1 j) := by
  unfold val_main_v2
  exact concatenate_apply_piece 0 _ _ (ix1 (⟨1536 + j.val, by have := j.isLt; omega⟩ : Fin 2048)) 3 (by show 3 < 4; omega) S512 x10 rfl rfl
    1536 rfl (ix1 j) (fun b hb => by match b with | ⟨0, _⟩ => exact absurd rfl hb)
    (by show 1536 + j.val = 1536 + j.val; omega)

/-! ## The fused product, one gate's columns at a time -/

/-- The fused pre-activations at row r and a column J whose weights and bias are those of one gate's column j:
    that gate's pre-activation at (r, j). -/
theorem fused_gate (x0 x1 : (⟨S16384x512, .f32⟩ : BufTy).Contents (Elt Ideal)) (x3 : (⟨S1024x512, .f32⟩ : BufTy).Contents (Elt Ideal)) (x4 : (⟨S512, .f32⟩ : BufTy).Contents (Elt Ideal)) (x5 : (⟨S1024x512, .f32⟩ : BufTy).Contents (Elt Ideal)) (x6 : (⟨S512, .f32⟩ : BufTy).Contents (Elt Ideal)) (x7 : (⟨S1024x512, .f32⟩ : BufTy).Contents (Elt Ideal)) (x8 : (⟨S512, .f32⟩ : BufTy).Contents (Elt Ideal)) (x9 : (⟨S1024x512, .f32⟩ : BufTy).Contents (Elt Ideal)) (x10 : (⟨S512, .f32⟩ : BufTy).Contents (Elt Ideal))
    (W : (⟨2, ![1024, 512]⟩ : Shape).Idx → EReal) (b : (⟨1, ![512]⟩ : Shape).Idx → EReal)
    (r : Fin 16384) (j : Fin 512) (J : Fin 2048)
    (hW : ∀ k : Fin 1024, val_main_v1 (F := Ideal) x3 x5 x7 x9 (ix2 k J) = W (ix2 k j))
    (hb : val_main_v2 (F := Ideal) x4 x6 x8 x10 (ix1 J) = b (ix1 j)) :
    val_main_v6 (F := Ideal) x0 x1 x3 x4 x5 x6 x7 x8 x9 x10 (ix2 r J) = gatePre x0 x1 W b r j := by
  have el : ∀ k : Fin 1024, lidx_main_v3 (ix2 r J) k = ix2 r k := fun k =>
    funext fun a => by match a with | ⟨0, _⟩ => rfl | ⟨1, _⟩ => rfl
  have er : ∀ k : Fin 1024, ridx_main_v3 (ix2 r J) k = ix2 k J := fun k =>
    funext fun a => by match a with | ⟨0, _⟩ => rfl | ⟨1, _⟩ => rfl
  have eb : idx_main_v4 (idx_main_v5 (ix2 r J)) = ix1 J := funext fun a => by match a with | ⟨0, _⟩ => rfl
  rw [val_main_v6_apply, val_main_v3_apply, val_main_v5_apply, val_main_v4_apply, eb, hb]
  simp only [el, er]
  unfold val_main_v0
  rw [Cert.LibSplitDense.concat_dense_sum (show 512 + 512 = 1024 from rfl) x0 x1 _
    (val_main_v1 (F := Ideal) x3 x5 x7 x9) r J]
  simp only [hW]
  rfl

/-- The input gate's column block of the fused pre-activations is its pre-activation. -/
theorem pre_i (x0 x1 : (⟨S16384x512, .f32⟩ : BufTy).Contents (Elt Ideal)) (x3 : (⟨S1024x512, .f32⟩ : BufTy).Contents (Elt Ideal)) (x4 : (⟨S512, .f32⟩ : BufTy).Contents (Elt Ideal)) (x5 : (⟨S1024x512, .f32⟩ : BufTy).Contents (Elt Ideal)) (x6 : (⟨S512, .f32⟩ : BufTy).Contents (Elt Ideal)) (x7 : (⟨S1024x512, .f32⟩ : BufTy).Contents (Elt Ideal)) (x8 : (⟨S512, .f32⟩ : BufTy).Contents (Elt Ideal)) (x9 : (⟨S1024x512, .f32⟩ : BufTy).Contents (Elt Ideal)) (x10 : (⟨S512, .f32⟩ : BufTy).Contents (Elt Ideal)) (r : Fin 16384) (j : Fin 512) :
    val_main_v7 (F := Ideal) x0 x1 x3 x4 x5 x6 x7 x8 x9 x10 (ix2 r j) = gatePre x0 x1 x3 x4 r j := by
  have e : idx_main_v7 (ix2 r j) = ix2 r (⟨j.val, by have := j.isLt; omega⟩ : Fin 2048) :=
    funext fun a => by match a with | ⟨0, _⟩ => rfl | ⟨1, _⟩ => rfl
  rw [val_main_v7_apply, e]
  exact fused_gate x0 x1 x3 x4 x5 x6 x7 x8 x9 x10 x3 x4 r j _ (fun k => weights_i x3 x5 x7 x9 k j) (bias_i x4 x6 x8 x10 j)

/-- The forget gate's column block of the fused pre-activations is its pre-activation. -/
theorem pre_f (x0 x1 : (⟨S16384x512, .f32⟩ : BufTy).Contents (Elt Ideal)) (x3 : (⟨S1024x512, .f32⟩ : BufTy).Contents (Elt Ideal)) (x4 : (⟨S512, .f32⟩ : BufTy).Contents (Elt Ideal)) (x5 : (⟨S1024x512, .f32⟩ : BufTy).Contents (Elt Ideal)) (x6 : (⟨S512, .f32⟩ : BufTy).Contents (Elt Ideal)) (x7 : (⟨S1024x512, .f32⟩ : BufTy).Contents (Elt Ideal)) (x8 : (⟨S512, .f32⟩ : BufTy).Contents (Elt Ideal)) (x9 : (⟨S1024x512, .f32⟩ : BufTy).Contents (Elt Ideal)) (x10 : (⟨S512, .f32⟩ : BufTy).Contents (Elt Ideal)) (r : Fin 16384) (j : Fin 512) :
    val_main_v8 (F := Ideal) x0 x1 x3 x4 x5 x6 x7 x8 x9 x10 (ix2 r j) = gatePre x0 x1 x5 x6 r j := by
  have e : idx_main_v8 (ix2 r j) = ix2 r (⟨512 + j.val, by have := j.isLt; omega⟩ : Fin 2048) :=
    funext fun a => by match a with | ⟨0, _⟩ => rfl | ⟨1, _⟩ => rfl
  rw [val_main_v8_apply, e]
  exact fused_gate x0 x1 x3 x4 x5 x6 x7 x8 x9 x10 x5 x6 r j _ (fun k => weights_f x3 x5 x7 x9 k j) (bias_f x4 x6 x8 x10 j)

/-- The output gate's column block of the fused pre-activations is its pre-activation. -/
theorem pre_o (x0 x1 : (⟨S16384x512, .f32⟩ : BufTy).Contents (Elt Ideal)) (x3 : (⟨S1024x512, .f32⟩ : BufTy).Contents (Elt Ideal)) (x4 : (⟨S512, .f32⟩ : BufTy).Contents (Elt Ideal)) (x5 : (⟨S1024x512, .f32⟩ : BufTy).Contents (Elt Ideal)) (x6 : (⟨S512, .f32⟩ : BufTy).Contents (Elt Ideal)) (x7 : (⟨S1024x512, .f32⟩ : BufTy).Contents (Elt Ideal)) (x8 : (⟨S512, .f32⟩ : BufTy).Contents (Elt Ideal)) (x9 : (⟨S1024x512, .f32⟩ : BufTy).Contents (Elt Ideal)) (x10 : (⟨S512, .f32⟩ : BufTy).Contents (Elt Ideal)) (r : Fin 16384) (j : Fin 512) :
    val_main_v9 (F := Ideal) x0 x1 x3 x4 x5 x6 x7 x8 x9 x10 (ix2 r j) = gatePre x0 x1 x7 x8 r j := by
  have e : idx_main_v9 (ix2 r j) = ix2 r (⟨1024 + j.val, by have := j.isLt; omega⟩ : Fin 2048) :=
    funext fun a => by match a with | ⟨0, _⟩ => rfl | ⟨1, _⟩ => rfl
  rw [val_main_v9_apply, e]
  exact fused_gate x0 x1 x3 x4 x5 x6 x7 x8 x9 x10 x7 x8 r j _ (fun k => weights_o x3 x5 x7 x9 k j) (bias_o x4 x6 x8 x10 j)

/-- The candidate gate's column block of the fused pre-activations is its pre-activation. -/
theorem pre_c (x0 x1 : (⟨S16384x512, .f32⟩ : BufTy).Contents (Elt Ideal)) (x3 : (⟨S1024x512, .f32⟩ : BufTy).Contents (Elt Ideal)) (x4 : (⟨S512, .f32⟩ : BufTy).Contents (Elt Ideal)) (x5 : (⟨S1024x512, .f32⟩ : BufTy).Contents (Elt Ideal)) (x6 : (⟨S512, .f32⟩ : BufTy).Contents (Elt Ideal)) (x7 : (⟨S1024x512, .f32⟩ : BufTy).Contents (Elt Ideal)) (x8 : (⟨S512, .f32⟩ : BufTy).Contents (Elt Ideal)) (x9 : (⟨S1024x512, .f32⟩ : BufTy).Contents (Elt Ideal)) (x10 : (⟨S512, .f32⟩ : BufTy).Contents (Elt Ideal)) (r : Fin 16384) (j : Fin 512) :
    val_main_v10 (F := Ideal) x0 x1 x3 x4 x5 x6 x7 x8 x9 x10 (ix2 r j) = gatePre x0 x1 x9 x10 r j := by
  have e : idx_main_v10 (ix2 r j) = ix2 r (⟨1536 + j.val, by have := j.isLt; omega⟩ : Fin 2048) :=
    funext fun a => by match a with | ⟨0, _⟩ => rfl | ⟨1, _⟩ => rfl
  rw [val_main_v10_apply, e]
  exact fused_gate x0 x1 x3 x4 x5 x6 x7 x8 x9 x10 x9 x10 r j _ (fun k => weights_c x3 x5 x7 x9 k j) (bias_c x4 x6 x8 x10 j)

/-! ## The gates -/

/-- The reference's spelling of the logistic function, with the float word of 1 for both ones. -/
theorem sigmoid_spelled (z : EReal) :
    Ideal.div (Ideal.ofBits .f32 0x3F800000#32) (Ideal.ofBits .f32 0x3F800000#32 + Ideal.exp (-z)) = Ideal.logistic z := by
  rw [Cert.LibTiles.one_f32]; rfl

/-- The input gate at (r, j). -/
theorem gate_i (x0 x1 : (⟨S16384x512, .f32⟩ : BufTy).Contents (Elt Ideal)) (x3 : (⟨S1024x512, .f32⟩ : BufTy).Contents (Elt Ideal)) (x4 : (⟨S512, .f32⟩ : BufTy).Contents (Elt Ideal)) (x5 : (⟨S1024x512, .f32⟩ : BufTy).Contents (Elt Ideal)) (x6 : (⟨S512, .f32⟩ : BufTy).Contents (Elt Ideal)) (x7 : (⟨S1024x512, .f32⟩ : BufTy).Contents (Elt Ideal)) (x8 : (⟨S512, .f32⟩ : BufTy).Contents (Elt Ideal)) (x9 : (⟨S1024x512, .f32⟩ : BufTy).Contents (Elt Ideal)) (x10 : (⟨S512, .f32⟩ : BufTy).Contents (Elt Ideal)) (r : Fin 16384) (j : Fin 512) :
    val_main_v16 (F := Ideal) x0 x1 x3 x4 x5 x6 x7 x8 x9 x10 (ix2 r j) = Ideal.logistic (gatePre x0 x1 x3 x4 r j) := by
  rw [val_main_v16_apply, val_main_v15_apply, val_main_cst_0_apply, val_main_v14_apply, val_main_v13_apply,
    val_main_cst_apply, val_main_v12_apply, val_main_v11_apply, pre_i]
  exact sigmoid_spelled _

/-- The forget gate at (r, j). -/
theorem gate_f (x0 x1 : (⟨S16384x512, .f32⟩ : BufTy).Contents (Elt Ideal)) (x3 : (⟨S1024x512, .f32⟩ : BufTy).Contents (Elt Ideal)) (x4 : (⟨S512, .f32⟩ : BufTy).Contents (Elt Ideal)) (x5 : (⟨S1024x512, .f32⟩ : BufTy).Contents (Elt Ideal)) (x6 : (⟨S512, .f32⟩ : BufTy).Contents (Elt Ideal)) (x7 : (⟨S1024x512, .f32⟩ : BufTy).Contents (Elt Ideal)) (x8 : (⟨S512, .f32⟩ : BufTy).Contents (Elt Ideal)) (x9 : (⟨S1024x512, .f32⟩ : BufTy).Contents (Elt Ideal)) (x10 : (⟨S512, .f32⟩ : BufTy).Contents (Elt Ideal)) (r : Fin 16384) (j : Fin 512) :
    val_main_v22 (F := Ideal) x0 x1 x3 x4 x5 x6 x7 x8 x9 x10 (ix2 r j) = Ideal.logistic (gatePre x0 x1 x5 x6 r j) := by
  rw [val_main_v22_apply, val_main_v21_apply, val_main_cst_2_apply, val_main_v20_apply, val_main_v19_apply,
    val_main_cst_1_apply, val_main_v18_apply, val_main_v17_apply, pre_f]
  exact sigmoid_spelled _

/-- The output gate at (r, j). -/
theorem gate_o (x0 x1 : (⟨S16384x512, .f32⟩ : BufTy).Contents (Elt Ideal)) (x3 : (⟨S1024x512, .f32⟩ : BufTy).Contents (Elt Ideal)) (x4 : (⟨S512, .f32⟩ : BufTy).Contents (Elt Ideal)) (x5 : (⟨S1024x512, .f32⟩ : BufTy).Contents (Elt Ideal)) (x6 : (⟨S512, .f32⟩ : BufTy).Contents (Elt Ideal)) (x7 : (⟨S1024x512, .f32⟩ : BufTy).Contents (Elt Ideal)) (x8 : (⟨S512, .f32⟩ : BufTy).Contents (Elt Ideal)) (x9 : (⟨S1024x512, .f32⟩ : BufTy).Contents (Elt Ideal)) (x10 : (⟨S512, .f32⟩ : BufTy).Contents (Elt Ideal)) (r : Fin 16384) (j : Fin 512) :
    val_main_v28 (F := Ideal) x0 x1 x3 x4 x5 x6 x7 x8 x9 x10 (ix2 r j) = Ideal.logistic (gatePre x0 x1 x7 x8 r j) := by
  rw [val_main_v28_apply, val_main_v27_apply, val_main_cst_4_apply, val_main_v26_apply, val_main_v25_apply,
    val_main_cst_3_apply, val_main_v24_apply, val_main_v23_apply, pre_o]
  exact sigmoid_spelled _

/-! ## The two results -/

/-- The reference's second result at (r, j) is the next cell state. -/
theorem cell_at (x0 x1 x2 : (⟨S16384x512, .f32⟩ : BufTy).Contents (Elt Ideal)) (x3 : (⟨S1024x512, .f32⟩ : BufTy).Contents (Elt Ideal)) (x4 : (⟨S512, .f32⟩ : BufTy).Contents (Elt Ideal)) (x5 : (⟨S1024x512, .f32⟩ : BufTy).Contents (Elt Ideal)) (x6 : (⟨S512, .f32⟩ : BufTy).Contents (Elt Ideal)) (x7 : (⟨S1024x512, .f32⟩ : BufTy).Contents (Elt Ideal)) (x8 : (⟨S512, .f32⟩ : BufTy).Contents (Elt Ideal)) (x9 : (⟨S1024x512, .f32⟩ : BufTy).Contents (Elt Ideal)) (x10 : (⟨S512, .f32⟩ : BufTy).Contents (Elt Ideal)) (r : Fin 16384) (j : Fin 512) :
    val_main_v32 (F := Ideal) x0 x1 x2 x3 x4 x5 x6 x7 x8 x9 x10 (ix2 r j) = cellAt x0 x1 x2 x3 x4 x5 x6 x9 x10 r j := by
  rw [val_main_v32_apply, val_main_v30_apply, val_main_v31_apply, val_main_v29_apply, gate_f, gate_i, pre_c]
  rfl

/-- The reference's second result is the next cell state. -/
theorem cell_eq (x0 x1 x2 : (⟨S16384x512, .f32⟩ : BufTy).Contents (Elt Ideal)) (x3 : (⟨S1024x512, .f32⟩ : BufTy).Contents (Elt Ideal)) (x4 : (⟨S512, .f32⟩ : BufTy).Contents (Elt Ideal)) (x5 : (⟨S1024x512, .f32⟩ : BufTy).Contents (Elt Ideal)) (x6 : (⟨S512, .f32⟩ : BufTy).Contents (Elt Ideal)) (x7 : (⟨S1024x512, .f32⟩ : BufTy).Contents (Elt Ideal)) (x8 : (⟨S512, .f32⟩ : BufTy).Contents (Elt Ideal)) (x9 : (⟨S1024x512, .f32⟩ : BufTy).Contents (Elt Ideal)) (x10 : (⟨S512, .f32⟩ : BufTy).Contents (Elt Ideal)) :
    val_main_v32 (F := Ideal) x0 x1 x2 x3 x4 x5 x6 x7 x8 x9 x10 = cellNext x0 x1 x2 x3 x4 x5 x6 x9 x10 := by
  funext i
  obtain ⟨r, j, rfl⟩ : ∃ (r : Fin 16384) (j : Fin 512), i = ix2 r j := ⟨i 0, i 1, eq_ix2 i⟩
  exact cell_at x0 x1 x2 x3 x4 x5 x6 x7 x8 x9 x10 r j

/-- The reference's first result is the next hidden state. -/
theorem hidden_eq (x0 x1 x2 : (⟨S16384x512, .f32⟩ : BufTy).Contents (Elt Ideal)) (x3 : (⟨S1024x512, .f32⟩ : BufTy).Contents (Elt Ideal)) (x4 : (⟨S512, .f32⟩ : BufTy).Contents (Elt Ideal)) (x5 : (⟨S1024x512, .f32⟩ : BufTy).Contents (Elt Ideal)) (x6 : (⟨S512, .f32⟩ : BufTy).Contents (Elt Ideal)) (x7 : (⟨S1024x512, .f32⟩ : BufTy).Contents (Elt Ideal)) (x8 : (⟨S512, .f32⟩ : BufTy).Contents (Elt Ideal)) (x9 : (⟨S1024x512, .f32⟩ : BufTy).Contents (Elt Ideal)) (x10 : (⟨S512, .f32⟩ : BufTy).Contents (Elt Ideal)) :
    val_main_v34 (F := Ideal) x0 x1 x2 x3 x4 x5 x6 x7 x8 x9 x10 = hiddenNext x0 x1 x2 x3 x4 x5 x6 x7 x8 x9 x10 := by
  funext i
  obtain ⟨r, j, rfl⟩ : ∃ (r : Fin 16384) (j : Fin 512), i = ix2 r j := ⟨i 0, i 1, eq_ix2 i⟩
  rw [val_main_v34_apply, val_main_v33_apply, gate_o, cell_at]
  rfl

end Cert.ReferenceIdeal.Cell

end
-- ==== Proof.lean ====
/-
  An LSTM cell, fused kernel against a plain reference, equal on the extended reals.

  Inputs: x, h, c of shape [16384, 512], four gate weight matrices [1024, 512] and four biases [512]. For a gate with
  weights W and bias b the pre-activation at batch row r and hidden unit j is
      pre(r, j) = (Σ_{k<512} x(r,k)·W(k,j) + Σ_{k<512} h(r,k)·W(512+k,j)) + b(j),
  and with σ(z) = 1/(1 + e^{-z}) the results are
      c'(r,j) = σ(pre_f)·c(r,j) + σ(pre_i)·tanh(pre_c),      h'(r,j) = σ(pre_o)·tanh(c'(r,j))
  (Proof/LstmCell.lean). The kernel runs over 32 blocks of 512 batch rows; for each gate it multiplies the x block by
  the weights' upper half and the h block by the lower half and adds the two products (Proof/KernelBlock.lean), and its
  32 written blocks tile the two result arrays (Proof/KernelWhole.lean). The reference multiplies the side-by-side
  matrix (x | h) by the four weight matrices laid side by side, adds the four biases laid end to end, and cuts the
  result into the four gates' column blocks (Proof/ReferenceCell.lean). The two agree because a sum over the 1024
  joined columns is the sum over the first 512 plus the sum over the last 512, which needs only commutativity and
  associativity of addition and so holds for infinite entries as well: the inputs' finiteness is never used. The
  kernel's change of float format is the identity on the extended reals, and its logistic operation is by definition
  the reference's spelled-out quotient.
-/
import proofs.«117257_j82669530514116_2_alg».proof.Defs
import proofs.«117257_j82669530514116_2_alg».proof.Proof.Gen.Kernel
import proofs.«117257_j82669530514116_2_alg».proof.Proof.Gen.Kernel.Skeleton
import proofs.«117257_j82669530514116_2_alg».proof.Proof.Gen.Kernel.Launch
import proofs.«117257_j82669530514116_2_alg».proof.Proof.Gen.Kernel.Points
import proofs.«117257_j82669530514116_2_alg».proof.Proof.Gen.Kernel.Frame
import proofs.«117257_j82669530514116_2_alg».proof.Proof.Gen.KernelIdeal
import proofs.«117257_j82669530514116_2_alg».proof.Proof.Gen.KernelIdeal.Skeleton
import proofs.«117257_j82669530514116_2_alg».proof.Proof.Gen.KernelIdeal.Launch
import proofs.«117257_j82669530514116_2_alg».proof.Proof.Gen.KernelIdeal.Points
import proofs.«117257_j82669530514116_2_alg».proof.Proof.Gen.KernelIdeal.Frame
import proofs.«117257_j82669530514116_2_alg».proof.Proof.Gen.ReferenceIdeal
import proofs.«117257_j82669530514116_2_alg».proof.Proof.Gen.Pre_finite_inputs
import proofs.«117257_j82669530514116_2_alg».proof.Proof.Gen.KernelIdeal.Value
import proofs.«117257_j82669530514116_2_alg».proof.Proof.Gen.ReferenceIdeal.Run
import proofs.«117257_j82669530514116_2_alg».proof.Proof.Gen.ReferenceIdeal.Read
import proofs.«117257_j82669530514116_2_alg».proof.Proof.KernelWhole
import proofs.«117257_j82669530514116_2_alg».proof.Proof.ReferenceCell
import Idealize.ShloMosaic.Adequacy
import Idealize.ShloMosaic.Init

noncomputable section

namespace Cert.Proof

open Idealize.ShloMosaic Idealize.ShloMosaic.TcCoe Idealize.SL.Sem

/-- The word-level kernel terminates without a fault and leaves its arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference's run, with its results dropped, is its frame. -/
theorem frame_reference : Cert.frame_ReferenceIdeal := fun m ρ _ =>
  (θ_run Cert.ReferenceIdeal.defs _ _).mono (fun _ h c => (h c).2.2) (Cert.ReferenceIdeal.Value.run (F := Ideal) m ρ)

/-- No operation of the kernel was rewritten on the way to the extended reals. -/
theorem preserves : Cert.preserves_Kernel_KernelIdeal := trivial

/-- From memories that agree on the arguments, the kernel and the reference both end with the next hidden state and
    the next cell state of those arguments. -/
theorem algebraic : Cert.algebraic_KernelIdeal_ReferenceIdeal := by
  intro m ρ m' ρ' _ hagree
  refine ⟨fun c => Cert.LstmCell.hiddenNext (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.LstmCell.cellNext (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.KernelIdeal.Whole.run m ρ, ?_⟩
  refine (θ_run Cert.ReferenceIdeal.defs _ _).mono (fun _ h c => ⟨?_, ?_, (h c).2.2⟩)
    (Cert.ReferenceIdeal.Value.run (F := Ideal) m' ρ')
  · obtain ⟨a0, a1, a2, a3, a4, a5, a6, a7, a8, a9, a10⟩ := hagree c
    rw [(h c).1, Cert.ReferenceIdeal.Read.val_main_v34_eq, Cert.ReferenceIdeal.Cell.hidden_eq,
      a0, a1, a2, a3, a4, a5, a6, a7, a8, a9, a10]
  · obtain ⟨a0, a1, a2, a3, a4, a5, a6, a7, a8, a9, a10⟩ := hagree c
    rw [(h c).2.1, Cert.ReferenceIdeal.Read.val_main_v32_eq, Cert.ReferenceIdeal.Cell.cell_eq,
      a0, a1, a2, a3, a4, a5, a6, a9, a10]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
